-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S16384x512 : Shape := ⟨2, ![16384, 512]⟩
abbrev S16384 : Shape := ⟨1, ![16384]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  main_v18

def fn {F : FTy → Type} [FloatOps F] (main_arg0 : FVec F S8x2048x512 .f32) (main_arg1 : FVec F S16384x512 .f32) (main_arg2 : FVec F S16384 .f32) (main_arg3 : FVec F S16384x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_v13 main_v16
-- ==== Kernel.lean ====
abbrev S8x2048x512 : Shape := ⟨3, ![8, 2048, 512]⟩
abbrev S16384x512 : Shape := ⟨2, ![16384, 512]⟩
abbrev S16384 : Shape := ⟨1, ![16384]⟩
abbrev S1x16384 : Shape := ⟨2, ![1, 16384]⟩
abbrev S2048x512 : Shape := ⟨2, ![2048, 512]⟩
abbrev S512x512 : Shape := ⟨2, ![512, 512]⟩
abbrev S1x512 : Shape := ⟨2, ![1, 512]⟩
abbrev S2048x1 : Shape := ⟨2, ![2048, 1]⟩
abbrev S2048 : Shape := ⟨1, ![2048]⟩

abbrev nBuf : Space → Nat
  | .hbm => 10
  | .vmem => 13
  | .smem => 0
  | _ => 0

abbrev bufTy : (tb : Table) → Fin (tcTables nBuf tb) → BufTy
  | .hbm, ⟨0, _⟩ => ⟨S8x2048x512, .f32⟩
  | .hbm, ⟨1, _⟩ => ⟨S16384x512, .f32⟩
  | .hbm, ⟨2, _⟩ => ⟨S16384, .f32⟩
  | .hbm, ⟨3, _⟩ => ⟨S16384x512, .f32⟩
  | .hbm, ⟨4, _⟩ => ⟨S16384x512, .f32⟩
  | .hbm, ⟨5, _⟩ => ⟨S1x16384, .f32⟩
  | .hbm, ⟨6, _⟩ => ⟨S16384x512, .bf16⟩
  | .hbm, ⟨7, _⟩ => ⟨S16384x512, .bf16⟩
  | .hbm, ⟨8, _⟩ => ⟨S16384x512, .f32⟩
  | .hbm, ⟨9, _⟩ => ⟨S8x2048x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S2048x1, .f32⟩
  | .local _ .vmem, ⟨12, _⟩ => ⟨S2048x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v44 : BitVec 1 := Scalar.cmpi .eq arg1 c31_i32
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x2048x512_S16384x512 : S8x2048x512.ShapeCasts S16384x512
  shapeCasts_S16384_S1x16384 : S16384.ShapeCasts S1x16384
  bitsLt_bf16_f32 : FTy.bits .bf16 < FTy.bits .f32
  shapeCasts_S16384x512_S8x2048x512 : S16384x512.ShapeCasts S8x2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  dot_S2048x512_S512x512_S2048x512_1_1_0_0_n_n_wf : DotDims.WF S2048x512 S512x512 S2048x512 [1] [1] [0] [0] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .bf16 = 32 ∨ (Rect.block (s := S16384x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .bf16 = 32 ∨ (Rect.block (s := S16384x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S16384x512.size a
  hwx0_4 : ∀ i : grid0.Coords, EltTy.bits .f32 = 32 ∨ (Rect.block (s := S16384x512) S2048x512.size (cc0_transform_4 i) (hinb0_4 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_call0_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x512 : Shape := ⟨3, ![8, 2048, 512]⟩
abbrev S16384x512 : Shape := ⟨2, ![16384, 512]⟩
abbrev S16384 : Shape := ⟨1, ![16384]⟩
abbrev S16384x16384 : Shape := ⟨2, ![16384, 16384]⟩
abbrev S1x16384 : Shape := ⟨2, ![1, 16384]⟩
abbrev S_ : Shape := ⟨0, ![]⟩
abbrev S16384x1 : Shape := ⟨2, ![16384, 1]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S16384x512, .f32⟩
  | .hbm, ⟨2, _⟩ => ⟨S16384, .f32⟩
  | .hbm, ⟨3, _⟩ => ⟨S16384x512, .f32⟩
  | .hbm, ⟨4, _⟩ => ⟨S16384x512, .f32⟩
  | .hbm, ⟨5, _⟩ => ⟨S16384x16384, .f32⟩
  | .hbm, ⟨6, _⟩ => ⟨S1x16384, .f32⟩
  | .hbm, ⟨7, _⟩ => ⟨S16384x16384, .f32⟩
  | .hbm, ⟨8, _⟩ => ⟨S16384x16384, .f32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x16384, .f32⟩
  | .hbm, ⟨22, _⟩ => ⟨S16384x16384, .f32⟩
  | .hbm, ⟨23, _⟩ => ⟨S16384x512, .f32⟩
  | .hbm, ⟨24, _⟩ => ⟨S16384x512, .f32⟩
  | .hbm, ⟨25, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  shapeCasts_S8x2048x512_S16384x512 : S8x2048x512.ShapeCasts S16384x512
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  shapeCasts_S16384x512_S8x2048x512 : S16384x512.ShapeCasts S8x2048x512
  dot_S16384x512_S16384x512_S16384x16384_1_1_0_0_n_n_wf : DotDims.WF S16384x512 S16384x512 S16384x16384 [1] [1] [0] [0] [] []
  dot_S16384x16384_S16384x512_S16384x512_1_0_0_1_n_n_wf : DotDims.WF S16384x16384 S16384x512 S16384x512 [1] [0] [0] [1] [] []

variable [Facts₀]

def dot_S16384x512_S16384x512_S16384x16384_1_1_0_0_n_n : DotDims S16384x512 S16384x512 S16384x16384 where
  lhsContracting := [1]
  rhsContracting := [1]
  lhsNonContracting := [0]
  rhsNonContracting := [0]
  lhsBatch := []
  rhsBatch := []
  wf := dot_S16384x512_S16384x512_S16384x16384_1_1_0_0_n_n_wf
def dot_S16384x16384_S16384x512_S16384x512_1_0_0_1_n_n : DotDims S16384x16384 S16384x512 S16384x512 where
  lhsContracting := [1]
  rhsContracting := [0]
  lhsNonContracting := [0]
  rhsNonContracting := [1]
  lhsBatch := []
  rhsBatch := []
  wf := dot_S16384x16384_S16384x512_S16384x512_1_0_0_1_n_n_wf

class Facts : Prop extends Facts₀ where

variable [Facts]
-- ==== Proof.Pieces.lean ====
import proofs.«146490_j30142080483336_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

/-! What each control case of the body leaves in the three carried buffers (the weighted-value accumulator, the running
    maximum, the running normaliser) and in the output block, as the body's arithmetic applied to the blocks it loaded
    and to what the previous point left. -/
namespace Cert.KernelIdeal.Pieces
open Cert.KernelIdeal Cert.KernelIdeal.Gen

variable {F : FTy → Type} [FloatOps F]
variable (c : Dev nD) (i : grid0.Coords)
  (a2 : Memref sig .tc .vmem S2048x512 .f32) (h2 : a2.IsWhole) (a3 : Memref sig .tc .vmem S512x512 .bf16) (h3 : a3.IsWhole)
  (a4 : Memref sig .tc .vmem S1x512 .f32) (h4 : a4.IsWhole) (a5 : Memref sig .tc .vmem S512x512 .bf16) (h5 : a5.IsWhole)
  (a6 : Memref sig .tc .vmem S2048x512 .f32) (h6 : a6.IsWhole) (a7 : Memref sig .tc .vmem S2048x512 .f32) (h7 : a7.IsWhole)
  (a8 : Memref sig .tc .vmem S2048x1 .f32) (h8 : a8.IsWhole) (a9 : Memref sig .tc .vmem S2048x1 .f32) (h9 : a9.IsWhole)
  (x0 : Vec F S2048x512 .f32) (x1 : Vec F S512x512 .bf16) (x2 : Vec F S1x512 .f32) (x3 : Vec F S512x512 .bf16)
  (xs0 : Vec F S2048x512 .f32) (xs1 : Vec F S2048x1 .f32) (xs2 : Vec F S2048x1 .f32)

theorem hz : (![0, 0] : Fin 2 → Nat) = fun _ => 0 := funext fun a => by fin_cases a <;> rfl

/-- A middle point: the accumulator is rescaled by the correction factor and the block's weighted values are added. -/
theorem accB (hc0 : ¬cond0_0 i) (hc1 : ¬cond0_1 i) :
    sout0_B_0 c i a2 h2 a3 h3 a4 h4 a5 h5 a6 h6 a7 h7 a8 h8 a9 h9 hc0 hc1 x0 x1 x2 x3 xs0 xs1 xs2 = k0_pay1 (k0_pay10 x0 x1 x2 xs1) (k0_pay12 x0 x1 x2 xs1 x3) xs0 := by
  unfold sout0_B_0
  rw [View.read_writes_eq_canon _ _ _ (scover0_B_0 c i a2 h2 a3 h3 a4 h4 a5 h5 a6 h6 a7 h7 a8 h8 a9 h9 hc0 hc1 x0 x1 x2 x3 xs0 xs1 xs2)]
  unfold kernelRun0_B
  dsimp only
  sl_unfold_words
  rw [View.canon_unit_zero hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz]

/-- A middle point: the running maximum becomes the larger of itself and the block's row maximum. -/
theorem maxB (hc0 : ¬cond0_0 i) (hc1 : ¬cond0_1 i) :
    sout0_B_1 c i a2 h2 a3 h3 a4 h4 a5 h5 a6 h6 a7 h7 a8 h8 a9 h9 hc0 hc1 x0 x1 x2 x3 xs0 xs1 xs2 = k0_pay2 (k0_pay8 x0 x1 x2 xs1) := by
  unfold sout0_B_1
  rw [View.read_writes_eq_canon _ _ _ (scover0_B_1 c i a2 h2 a3 h3 a4 h4 a5 h5 a6 h6 a7 h7 a8 h8 a9 h9 hc0 hc1 x0 x1 x2 x3 xs0 xs1 xs2)]
  unfold kernelRun0_B
  dsimp only
  sl_unfold_words
  rw [View.canon_unit_zero hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz]

/-- A middle point: the running normaliser is rescaled and the block's row sum of exponentials is added. -/
theorem sumB (hc0 : ¬cond0_0 i) (hc1 : ¬cond0_1 i) :
    sout0_B_2 c i a2 h2 a3 h3 a4 h4 a5 h5 a6 h6 a7 h7 a8 h8 a9 h9 hc0 hc1 x0 x1 x2 x3 xs0 xs1 xs2 = k0_pay11 x0 x1 x2 xs1 xs2 := by
  unfold sout0_B_2
  rw [View.read_writes_eq_canon _ _ _ (scover0_B_2 c i a2 h2 a3 h3 a4 h4 a5 h5 a6 h6 a7 h7 a8 h8 a9 h9 hc0 hc1 x0 x1 x2 x3 xs0 xs1 xs2)]
  unfold kernelRun0_B
  dsimp only
  sl_unfold_words
  rw [View.canon_unit_zero hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz]

/-- The last point of a row block updates the three carried buffers exactly as a middle point does. -/
theorem accC (hc0 : ¬cond0_0 i) (hc1 : cond0_1 i) :
    sout0_C_0 c i a2 h2 a3 h3 a4 h4 a5 h5 a6 h6 a7 h7 a8 h8 a9 h9 hc0 hc1 x0 x1 x2 x3 xs0 xs1 xs2 = k0_pay1 (k0_pay10 x0 x1 x2 xs1) (k0_pay12 x0 x1 x2 xs1 x3) xs0 := by
  unfold sout0_C_0
  rw [View.read_writes_eq_canon _ _ _ (scover0_C_0 c i a2 h2 a3 h3 a4 h4 a5 h5 a6 h6 a7 h7 a8 h8 a9 h9 hc0 hc1 x0 x1 x2 x3 xs0 xs1 xs2)]
  unfold kernelRun0_C
  dsimp only
  sl_unfold_words
  rw [View.canon_unit_zero hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz]

theorem maxC (hc0 : ¬cond0_0 i) (hc1 : cond0_1 i) :
    sout0_C_1 c i a2 h2 a3 h3 a4 h4 a5 h5 a6 h6 a7 h7 a8 h8 a9 h9 hc0 hc1 x0 x1 x2 x3 xs0 xs1 xs2 = k0_pay2 (k0_pay8 x0 x1 x2 xs1) := by
  unfold sout0_C_1
  rw [View.read_writes_eq_canon _ _ _ (scover0_C_1 c i a2 h2 a3 h3 a4 h4 a5 h5 a6 h6 a7 h7 a8 h8 a9 h9 hc0 hc1 x0 x1 x2 x3 xs0 xs1 xs2)]
  unfold kernelRun0_C
  dsimp only
  sl_unfold_words
  rw [View.canon_unit_zero hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz]

theorem sumC (hc0 : ¬cond0_0 i) (hc1 : cond0_1 i) :
    sout0_C_2 c i a2 h2 a3 h3 a4 h4 a5 h5 a6 h6 a7 h7 a8 h8 a9 h9 hc0 hc1 x0 x1 x2 x3 xs0 xs1 xs2 = k0_pay11 x0 x1 x2 xs1 xs2 := by
  unfold sout0_C_2
  rw [View.read_writes_eq_canon _ _ _ (scover0_C_2 c i a2 h2 a3 h3 a4 h4 a5 h5 a6 h6 a7 h7 a8 h8 a9 h9 hc0 hc1 x0 x1 x2 x3 xs0 xs1 xs2)]
  unfold kernelRun0_C
  dsimp only
  sl_unfold_words
  rw [View.canon_unit_zero hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz]

/-- The last point also writes the output block: the updated accumulator times the reciprocal of the updated
    normaliser, plus the input rows. -/
theorem outC (hc0 : ¬cond0_0 i) (hc1 : cond0_1 i) :
    out0_C_4 c i a2 h2 a3 h3 a4 h4 a5 h5 a6 h6 a7 h7 a8 h8 a9 h9 hc0 hc1 x0 x1 x2 x3 xs0 xs1 xs2
      = k0_pay3 (k0_pay1 (k0_pay10 x0 x1 x2 xs1) (k0_pay12 x0 x1 x2 xs1 x3) xs0) (k0_pay11 x0 x1 x2 xs1 xs2) x0 := by
  unfold out0_C_4
  rw [View.read_writes_eq_canon _ _ _ (cover0_C_4 c i a2 h2 a3 h3 a4 h4 a5 h5 a6 h6 a7 h7 a8 h8 a9 h9 hc0 hc1 x0 x1 x2 x3 xs0 xs1 xs2)]
  unfold kernelRun0_C
  dsimp only
  sl_unfold_words
  rw [View.canon_unit_zero hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz,
    View.readCov_unit_zero (S := S2048x512) _ hz, View.readCov_unit_zero (S := S2048x1) _ hz]

/-- The first point of a row block starts from the initial buffers: accumulator and normaliser zero, maximum minus infinity. -/
theorem accA (hc0 : cond0_0 i) (hc1 : ¬cond0_1 i) :
    sout0_A_0 c i a2 h2 a3 h3 a4 h4 a5 h5 a6 h6 a7 h7 a8 h8 a9 h9 hc0 hc1 x0 x1 x2 x3 = k0_pay1 (k0_pay10 x0 x1 x2 k0_pay5) (k0_pay12 x0 x1 x2 k0_pay5 x3) k0_pay4 := by
  unfold sout0_A_0
  rw [View.read_writes_eq_canon _ _ _ (scover0_A_0 c i a2 h2 a3 h3 a4 h4 a5 h5 a6 h6 a7 h7 a8 h8 a9 h9 hc0 hc1 x0 x1 x2 x3)]
  unfold kernelRun0_A
  dsimp only
  sl_unfold_words
  rw [View.canon_cons_unit_zero (S := S2048x512) hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz,
    View.readCov_unit_zero (S := S2048x512) _ hz, View.readCov_unit_zero (S := S2048x1) _ hz]

theorem maxA (hc0 : cond0_0 i) (hc1 : ¬cond0_1 i) :
    sout0_A_1 c i a2 h2 a3 h3 a4 h4 a5 h5 a6 h6 a7 h7 a8 h8 a9 h9 hc0 hc1 x0 x1 x2 x3 = k0_pay2 (k0_pay8 x0 x1 x2 k0_pay5) := by
  unfold sout0_A_1
  rw [View.read_writes_eq_canon _ _ _ (scover0_A_1 c i a2 h2 a3 h3 a4 h4 a5 h5 a6 h6 a7 h7 a8 h8 a9 h9 hc0 hc1 x0 x1 x2 x3)]
  unfold kernelRun0_A
  dsimp only
  sl_unfold_words
  rw [View.canon_cons_unit_zero (S := S2048x1) hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz,
    View.readCov_unit_zero (S := S2048x512) _ hz, View.readCov_unit_zero (S := S2048x1) _ hz]

theorem sumA (hc0 : cond0_0 i) (hc1 : ¬cond0_1 i) :
    sout0_A_2 c i a2 h2 a3 h3 a4 h4 a5 h5 a6 h6 a7 h7 a8 h8 a9 h9 hc0 hc1 x0 x1 x2 x3 = k0_pay11 x0 x1 x2 k0_pay5 k0_pay6 := by
  unfold sout0_A_2
  rw [View.read_writes_eq_canon _ _ _ (scover0_A_2 c i a2 h2 a3 h3 a4 h4 a5 h5 a6 h6 a7 h7 a8 h8 a9 h9 hc0 hc1 x0 x1 x2 x3)]
  unfold kernelRun0_A
  dsimp only
  sl_unfold_words
  rw [View.canon_cons_unit_zero (S := S2048x1) hz]
  simp only [View.readAt_eq_ld, h2.read_unread, h3.read_unread, h4.read_unread, h5.read_unread, h7.read_unread, h8.read_unread, h9.read_unread,
    View.ld_unit_zero (S := S2048x512) hz, View.ld_unit_zero (S := S512x512) hz, View.ld_unit_zero (S := S1x512) hz, View.ld_unit_zero (S := S2048x1) hz,
    View.readCov_unit_zero (S := S2048x512) _ hz, View.readCov_unit_zero (S := S2048x1) _ hz]

end Cert.KernelIdeal.Pieces
end
-- ==== Proof.Blocks.lean ====
import proofs.«146490_j30142080483336_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

/-! Which entries of the four arrays the blocks of a grid point hold. Point `t` of the 8 × 32 grid works on token rows
    `2048·(t / 32) ..` and on slots `512·(t % 32) ..`; the arrays themselves are the arguments re-laid by the
    operations in front of the launch (a reshape of the tokens and of the bias, a change of format of the two weight
    arrays, which over the extended reals is the identity). -/
namespace Cert.KernelIdeal.Blocks
open Cert.KernelIdeal Cert.KernelIdeal.Gen Idealize.ShloMosaic.ValueIdx

variable (m : (ℓ : Loc nD τ sig) → Buf (Elt Ideal) ℓ) (c : Dev nD)

/-- The four arrays as the launch finds them. -/
abbrev Xa : S16384x512.Idx → EReal := V m c main_call0_v0
abbrev Wa : S16384x512.Idx → EReal := V m c main_call0_v2
abbrev Ba : S1x16384.Idx → EReal := V m c main_call0_v1
abbrev Va : S16384x512.Idx → EReal := V m c main_call0_v3

theorem Xa_eq : Xa m c = shapeCast S16384x512 (m ((c : Thread nD τ).loc main_arg0)) shapeCasts_S8x2048x512_S16384x512 := by
  show StableHlo.after hostOps0 (fun b => m (c, b)) (Proc.devRef .tc main_call0_v0) = _
  after_results; rfl

theorem Wa_eq : Wa m c = (m ((c : Thread nD τ).loc main_arg1) : S16384x512.Idx → EReal) := by
  show StableHlo.after hostOps0 (fun b => m (c, b)) (Proc.devRef .tc main_call0_v2) = _
  after_results; rfl

theorem Ba_eq : Ba m c = shapeCast S1x16384 (m ((c : Thread nD τ).loc main_arg2)) shapeCasts_S16384_S1x16384 := by
  show StableHlo.after hostOps0 (fun b => m (c, b)) (Proc.devRef .tc main_call0_v1) = _
  after_results; rfl

theorem Va_eq : Va m c = (m ((c : Thread nD τ).loc main_arg3) : S16384x512.Idx → EReal) := by
  show StableHlo.after hostOps0 (fun b => m (c, b)) (Proc.devRef .tc main_call0_v3) = _
  after_results; rfl

/-- The printed index maps over the grid: the token block moves with `t / 32`, the slot blocks with `t % 32`. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = 0 ∧ win0_2.index t (1 : Fin 2) = t.val % 32
    ∧ win0_3.index t (0 : Fin 2) = t.val % 32 ∧ win0_3.index t (1 : Fin 2) = 0
    ∧ win0_4.index t (0 : Fin 2) = t.val / 32 ∧ win0_4.index t (1 : Fin 2) = 0 :=
  (by decide +kernel : ∀ t : Fin grid0.N, _)

/-- The token row that row `r` of point `t`'s block is. -/
def rowOf (t : Fin cfg0.N) (r : Fin 2048) : Fin 16384 :=
  ⟨2048 * (t.val / 32) + r.val, by have := t.isLt; have hN : cfg0.N = 256 := N_0; have := r.isLt; omega⟩

/-- The slot that column `q` of point `t`'s block of scores is. -/
def colOf (t : Fin cfg0.N) (q : Fin 512) : Fin 16384 :=
  ⟨512 * (t.val % 32) + q.val, by have := q.isLt; omega⟩

theorem blkX (t : Fin cfg0.N) (r : Fin 2048) (e : Fin 512) :
    (iblk m c 0 t : Vec Ideal S2048x512 .f32) (ix2 r e) = Xa m c (ix2 (rowOf t r) e) := by
  obtain ⟨e0, e1, -⟩ := idx_facts t
  unfold iblk
  rw [View.read_apply]
  show V m c main_call0_v0 _ = V m c main_call0_v0 _
  refine congrArg _ (funext fun a => Fin.ext ?_)
  match a with
  | ⟨0, _⟩ => show win0_0.index t (0 : Fin 2) * 2048 + 1 * r.val = 2048 * (t.val / 32) + r.val; rw [e0]; omega
  | ⟨1, _⟩ => show win0_0.index t (1 : Fin 2) * 512 + 1 * e.val = e.val; rw [e1]; omega

theorem blkW (t : Fin cfg0.N) (q : Fin 512) (e : Fin 512) :
    (iblk m c 1 t : Vec Ideal S512x512 .bf16) (ix2 q e) = Wa m c (ix2 (colOf t q) e) := by
  obtain ⟨-, -, e0, e1, -⟩ := idx_facts t
  unfold iblk
  rw [View.read_apply]
  show V m c main_call0_v2 _ = V m c main_call0_v2 _
  refine congrArg _ (funext fun a => Fin.ext ?_)
  match a with
  | ⟨0, _⟩ => show win0_1.index t (0 : Fin 2) * 512 + 1 * q.val = 512 * (t.val % 32) + q.val; rw [e0]; omega
  | ⟨1, _⟩ => show win0_1.index t (1 : Fin 2) * 512 + 1 * e.val = e.val; rw [e1]; omega

theorem blkB (t : Fin cfg0.N) (q : Fin 512) :
    (iblk m c 2 t : Vec Ideal S1x512 .f32) (ix2 (0 : Fin 1) q) = Ba m c (ix2 (0 : Fin 1) (colOf t q)) := by
  obtain ⟨-, -, -, -, e0, e1, -⟩ := idx_facts t
  unfold iblk
  rw [View.read_apply]
  show V m c main_call0_v1 _ = V m c main_call0_v1 _
  refine congrArg _ (funext fun a => Fin.ext ?_)
  match a with
  | ⟨0, _⟩ => show win0_2.index t (0 : Fin 2) * 1 + 1 * 0 = 0; rw [e0]
  | ⟨1, _⟩ => show win0_2.index t (1 : Fin 2) * 512 + 1 * q.val = 512 * (t.val % 32) + q.val; rw [e1]; omega

theorem blkV (t : Fin cfg0.N) (q : Fin 512) (cc : Fin 512) :
    (iblk m c 3 t : Vec Ideal S512x512 .bf16) (ix2 q cc) = Va m c (ix2 (colOf t q) cc) := by
  obtain ⟨-, -, -, -, -, -, e0, e1, -⟩ := idx_facts t
  unfold iblk
  rw [View.read_apply]
  show V m c main_call0_v3 _ = V m c main_call0_v3 _
  refine congrArg _ (funext fun a => Fin.ext ?_)
  match a with
  | ⟨0, _⟩ => show win0_3.index t (0 : Fin 2) * 512 + 1 * q.val = 512 * (t.val % 32) + q.val; rw [e0]; omega
  | ⟨1, _⟩ => show win0_3.index t (1 : Fin 2) * 512 + 1 * cc.val = cc.val; rw [e1]; omega

end Cert.KernelIdeal.Blocks
end
-- ==== Proof.Cases.lean ====
import proofs.«146490_j30142080483336_2_alg».proof.Proof.Pieces
import proofs.«146490_j30142080483336_2_alg».proof.Proof.Blocks

set_option maxRecDepth 16384

noncomputable section

open Idealize.ShloMosaic Idealize.ShloMosaic.TcCoe Idealize.SL.Sem Idealize.ShloMosaic.Tactic
open Idealize.ShloMosaic.Pipeline (Dat)

/-! The frame's point-by-point contents of the carried buffers and of the output block, case by case, as the body's
    arithmetic applied to the point's blocks and to what the previous point left. -/
namespace Cert.KernelIdeal.Cases
open Cert.KernelIdeal Cert.KernelIdeal.Gen Idealize.ShloMosaic.ValueIdx

variable (m : (ℓ : Loc nD τ sig) → Buf (Elt Ideal) ℓ) (c : Dev nD)

/-! ## What the frame's point-by-point contents are, case by case -/

theorem scr_A (t : Fin cfg0.N) (h0 : t.val % 32 = 0) (h1 : ¬t.val % 32 = 31) :
    (outsAt0 m c t.val t.isLt).2 = (k0_pay1 (F := Ideal) (k0_pay10 (iblk m c 0 t) (iblk m c 1 t) (iblk m c 2 t) (k0_pay5 (F := Ideal))) (k0_pay12 (iblk m c 0 t) (iblk m c 1 t) (iblk m c 2 t) (k0_pay5 (F := Ideal)) (iblk m c 3 t)) (k0_pay4 (F := Ideal)), k0_pay2 (F := Ideal) (k0_pay8 (iblk m c 0 t) (iblk m c 1 t) (iblk m c 2 t) (k0_pay5 (F := Ideal))), k0_pay11 (F := Ideal) (iblk m c 0 t) (iblk m c 1 t) (iblk m c 2 t) (k0_pay5 (F := Ideal)) (k0_pay6 (F := Ideal))) := by
  rw [outsAt0_A m c t h0 h1]
  exact congrArg₂ Prod.mk (Pieces.accA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h)))
    (congrArg₂ Prod.mk (Pieces.maxA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))) (Pieces.sumA c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) ((hcond0_0 t).mpr h0) (fun h => h1 ((hcond0_1 t).mp h))))

theorem scr_B (t : Fin cfg0.N) (h0 : ¬t.val % 32 = 0) (h1 : ¬t.val % 32 = 31) :
    (outsAt0 m c t.val t.isLt).2 = (k0_pay1 (F := Ideal) (k0_pay10 (iblk m c 0 t) (iblk m c 1 t) (iblk m c 2 t) (outsAt0 m c (t.val - 1) (Nat.lt_of_le_of_lt (Nat.sub_le _ _) t.isLt)).2.2.1) (k0_pay12 (iblk m c 0 t) (iblk m c 1 t) (iblk m c 2 t) (outsAt0 m c (t.val - 1) (Nat.lt_of_le_of_lt (Nat.sub_le _ _) t.isLt)).2.2.1 (iblk m c 3 t)) (outsAt0 m c (t.val - 1) (Nat.lt_of_le_of_lt (Nat.sub_le _ _) t.isLt)).2.1, k0_pay2 (F := Ideal) (k0_pay8 (iblk m c 0 t) (iblk m c 1 t) (iblk m c 2 t) (outsAt0 m c (t.val - 1) (Nat.lt_of_le_of_lt (Nat.sub_le _ _) t.isLt)).2.2.1), k0_pay11 (F := Ideal) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  rw [outsAt0_B m c t h0 h1]
  exact congrArg₂ Prod.mk (Pieces.accB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)))
    (congrArg₂ Prod.mk (Pieces.maxB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))) (Pieces.sumB c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))))

theorem scr_C (t : Fin cfg0.N) (h0 : ¬t.val % 32 = 0) (h1 : t.val % 32 = 31) :
    (outsAt0 m c t.val t.isLt).2 = (k0_pay1 (F := Ideal) (k0_pay10 (iblk m c 0 t) (iblk m c 1 t) (iblk m c 2 t) (outsAt0 m c (t.val - 1) (Nat.lt_of_le_of_lt (Nat.sub_le _ _) t.isLt)).2.2.1) (k0_pay12 (iblk m c 0 t) (iblk m c 1 t) (iblk m c 2 t) (outsAt0 m c (t.val - 1) (Nat.lt_of_le_of_lt (Nat.sub_le _ _) t.isLt)).2.2.1 (iblk m c 3 t)) (outsAt0 m c (t.val - 1) (Nat.lt_of_le_of_lt (Nat.sub_le _ _) t.isLt)).2.1, k0_pay2 (F := Ideal) (k0_pay8 (iblk m c 0 t) (iblk m c 1 t) (iblk m c 2 t) (outsAt0 m c (t.val - 1) (Nat.lt_of_le_of_lt (Nat.sub_le _ _) t.isLt)).2.2.1), k0_pay11 (F := Ideal) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  rw [outsAt0_C m c t h0 h1]
  exact congrArg₂ Prod.mk (Pieces.accC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1))
    (congrArg₂ Prod.mk (Pieces.maxC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)) (Pieces.sumC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)))

set_option maxHeartbeats 400000 in
theorem out_C (t : Fin cfg0.N) (h0 : ¬t.val % 32 = 0) (h1 : t.val % 32 = 31) :
    (outsAt0 m c t.val t.isLt).1 = k0_pay3 (F := Ideal) (k0_pay1 (F := Ideal) (k0_pay10 (iblk m c 0 t) (iblk m c 1 t) (iblk m c 2 t) (outsAt0 m c (t.val - 1) (Nat.lt_of_le_of_lt (Nat.sub_le _ _) t.isLt)).2.2.1) (k0_pay12 (iblk m c 0 t) (iblk m c 1 t) (iblk m c 2 t) (outsAt0 m c (t.val - 1) (Nat.lt_of_le_of_lt (Nat.sub_le _ _) t.isLt)).2.2.1 (iblk m c 3 t)) (outsAt0 m c (t.val - 1) (Nat.lt_of_le_of_lt (Nat.sub_le _ _) t.isLt)).2.1) (k0_pay11 (F := Ideal) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (iblk m c 0 t) := by
  have e := outsAt0_C m c t h0 h1
  have e1 : (outsAt0 m c t.val t.isLt).1 = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 := by
    rw [e]
  exact e1.trans (Pieces.outC c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1))

end Cert.KernelIdeal.Cases
end
-- ==== Proof.LibColumn.lean ====
import Idealize.ShloMosaic.Lib.ValueLayout

/-!
A column of per-row values read at an index: a vector `[a]` viewed as a one-column matrix `[a, 1]`, and a one-column
matrix `[a, 1]` repeated along its row to `[a, b]` — the two layout steps between a row reduction that keeps its
axis and the matrix it is then combined with. General in the extents.
-/

namespace Idealize.ShloMosaic.ValueIdx

open Idealize.ShloMosaic

variable {α : Type}

/-- An `[a]` vector cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.Consts.lean ====
import Idealize.ShloMosaic.PureOps.Ideal

/-! The four float constants the two programs spell, as the extended reals they denote: zero, one, and the two infinities. -/

noncomputable section

namespace Cert.Consts

open Idealize.ShloMosaic

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem ofBits_neginf : Ideal.ofBits .f32 0xFF800000#32 = ⊥ := by simp [Ideal.ofBits, Ideal.ieee]
theorem ofBits_posinf : Ideal.ofBits .f32 0x7F800000#32 = ⊤ := by simp [Ideal.ofBits, Ideal.ieee]

end Cert.Consts

end
-- ==== Proof.Payload.lean ====
import proofs.«146490_j30142080483336_2_alg».proof.Proof.Gen.KernelIdeal.Skeleton
import proofs.«146490_j30142080483336_2_alg».proof.Proof.LibColumn
import proofs.«146490_j30142080483336_2_alg».proof.Proof.Consts
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.Tactic
open Idealize.ShloMosaic.Pipeline (Dat)

/-! The body's arithmetic read entry by entry over the extended reals: the block of scores (a row of the input against a
    row of the projection weights, plus the bias), the row maximum, the exponentials, the correction factor, the
    normaliser, the weighted values, and the final quotient. Rows are `r`, score columns `q`, embedding columns `cc`. -/
namespace Cert.KernelIdeal.Payload
open Cert.KernelIdeal Cert.KernelIdeal.Gen Idealize.ShloMosaic.ValueIdx Cert.Consts

/-! ## The two reductions along a row, and the two matrix products -/

theorem lift_row (r : Fin 2048) (k : Fin (S2048x512.size 1)) :
    reduces_S2048x512_S2048.lift (ix1 r) k = ix2 r (⟨k.val, k.isLt⟩ : Fin 512) := by
  funext d; apply Fin.ext
  fin_cases d <;> rfl

/-- The row maximum from minus infinity. -/
theorem rowmax_apply (src : FVec Ideal S2048x512 .f32) (hφ : FKind.Formats .f32)
    (hacc : (0xFF800000#32 : BitVec 32) = FKind.maximumf.neutral .f32 hφ) (r : Fin 2048) :
    multiReduction .maximumf [1] S2048 src 0xFF800000#32 reduces_S2048x512_S2048 hφ hacc (ix1 r)
      = (Finset.univ : Finset (Fin 512)).fold max ⊥ (fun k => src (ix2 r k)) := by
  refine (Ideal.multiReduction_maximumf_single src 0xFF800000#32 reduces_S2048x512_S2048 hφ hacc (ix1 r)).trans ?_
  have hf : (src ∘ reduces_S2048x512_S2048.lift (ix1 r)) = fun k : Fin 512 => src (ix2 r k) :=
    funext fun k => congrArg src (lift_row r k)
  have hb : (FloatOps.ofBits (F := Ideal) .f32 0xFF800000#32) = (⊥ : EReal) := ofBits_neginf
  rw [hb]
  exact congrArg (fun f => Finset.fold max (⊥ : EReal) f (Finset.univ : Finset (Fin 512))) hf

/-- The row sum. -/
theorem rowsum_apply (src : FVec Ideal S2048x512 .f32) (hφ : FKind.Formats .f32)
    (hacc : (0x00000000#32 : BitVec 32) = FKind.add.neutral .f32 hφ) (r : Fin 2048) :
    multiReduction .add [1] S2048 src 0x00000000#32 reduces_S2048x512_S2048 hφ hacc (ix1 r)
      = ∑ k : Fin 512, src (ix2 r k) := by
  refine (Ideal.multiReduction_add_single src 0x00000000#32 reduces_S2048x512_S2048 hφ hacc (ix1 r)).trans ?_
  exact Finset.sum_congr rfl fun k _ => congrArg src (lift_row r k)

abbrev DT := dot_S2048x512_S512x512_S2048x512_1_1_0_0_n_n
abbrev DP := dot_S2048x512_S512x512_S2048x512_1_0_0_1_n_n

theorem DT_lhs0 (i : S2048x512.Idx) (q : DT.contr.Idx) : (DT.lhsIdx i q 0).val = (i 0).val := by
  unfold DotDims.lhsIdx
  rw [dif_neg (show ¬(0 : Fin S2048x512.rank) ∈ DT.lhsBatch by decide), dif_pos (show (0 : Fin S2048x512.rank) ∈ DT.lhsNonContracting by decide)]
  rfl
theorem DT_lhs1 (i : S2048x512.Idx) (q : DT.contr.Idx) : (DT.lhsIdx i q 1).val = (q ⟨0, by decide⟩).val :=
  DT.lhsIdx_val_of_single rfl i q
theorem DT_rhs0 (i : S2048x512.Idx) (q : DT.contr.Idx) : (DT.rhsIdx i q 0).val = (i 1).val := by
  unfold DotDims.rhsIdx
  rw [dif_neg (show ¬(0 : Fin S512x512.rank) ∈ DT.rhsBatch by decide), dif_pos (show (0 : Fin S512x512.rank) ∈ DT.rhsNonContracting by decide)]
  rfl
theorem DT_rhs1 (i : S2048x512.Idx) (q : DT.contr.Idx) : (DT.rhsIdx i q 1).val = (q ⟨0, by decide⟩).val :=
  DT.rhsIdx_val_of_single rfl i q

theorem DP_lhs0 (i : S2048x512.Idx) (q : DP.contr.Idx) : (DP.lhsIdx i q 0).val = (i 0).val := by
  unfold DotDims.lhsIdx
  rw [dif_neg (show ¬(0 : Fin S2048x512.rank) ∈ DP.lhsBatch by decide), dif_pos (show (0 : Fin S2048x512.rank) ∈ DP.lhsNonContracting by decide)]
  rfl
theorem DP_lhs1 (i : S2048x512.Idx) (q : DP.contr.Idx) : (DP.lhsIdx i q 1).val = (q ⟨0, by decide⟩).val :=
  DP.lhsIdx_val_of_single rfl i q
theorem DP_rhs0 (i : S2048x512.Idx) (q : DP.contr.Idx) : (DP.rhsIdx i q 0).val = (q ⟨0, by decide⟩).val :=
  DP.rhsIdx_val_of_single rfl i q
theorem DP_rhs1 (i : S2048x512.Idx) (q : DP.contr.Idx) : (DP.rhsIdx i q 1).val = (i 1).val := by
  unfold DotDims.rhsIdx
  rw [dif_neg (show ¬(1 : Fin S512x512.rank) ∈ DP.rhsBatch by decide), dif_pos (show (1 : Fin S512x512.rank) ∈ DP.rhsNonContracting by decide)]
  rfl

/-- The product against the transposed right factor: entry (p, q) pairs row p of the left with row q of the right. -/
theorem mmT_apply {φ₁ φ₂ : FTy} (l : FVec Ideal S2048x512 φ₁) (w : FVec Ideal S512x512 φ₂) (p : Fin 2048) (q : Fin 512) :
    matmul DT none l w (constant S2048x512 .f32 0x00000000#32) (ix2 p q)
      = ∑ e : Fin 512, (l (ix2 p e) : EReal) * (w (ix2 q e) : EReal) := by
  refine (Ideal.matmul_constant_zero_apply DT none l w (ix2 p q)).trans ?_
  rw [← Equiv.sum_comp (contrEquiv1 DT 512 rfl rfl).symm]
  refine Finset.sum_congr rfl fun k _ => ?_
  have hk := contrEquiv1_symm_val DT 512 rfl rfl k
  have el : DT.lhsIdx (ix2 p q) ((contrEquiv1 DT 512 rfl rfl).symm k) = ix2 p k := funext fun a => Fin.ext (by
    match a with
    | ⟨0, _⟩ => exact DT_lhs0 _ _
    | ⟨1, _⟩ => exact (DT_lhs1 _ _).trans hk)
  have er : DT.rhsIdx (ix2 p q) ((contrEquiv1 DT 512 rfl rfl).symm k) = ix2 q k := funext fun a => Fin.ext (by
    match a with
    | ⟨0, _⟩ => exact DT_rhs0 _ _
    | ⟨1, _⟩ => exact (DT_rhs1 _ _).trans hk)
  rw [el, er]

/-- The plain product: entry (p, cc) pairs row p of the left with column cc of the right. -/
theorem mmP_apply {φ₁ φ₂ : FTy} (l : FVec Ideal S2048x512 φ₁) (w : FVec Ideal S512x512 φ₂) (p : Fin 2048) (cc : Fin 512) :
    matmul DP none l w (constant S2048x512 .f32 0x00000000#32) (ix2 p cc)
      = ∑ k : Fin 512, (l (ix2 p k) : EReal) * (w (ix2 k cc) : EReal) := by
  refine (Ideal.matmul_constant_zero_apply DP none l w (ix2 p cc)).trans ?_
  rw [← Equiv.sum_comp (contrEquiv1 DP 512 rfl rfl).symm]
  refine Finset.sum_congr rfl fun k _ => ?_
  have hk := contrEquiv1_symm_val DP 512 rfl rfl k
  have el : DP.lhsIdx (ix2 p cc) ((contrEquiv1 DP 512 rfl rfl).symm k) = ix2 p k := funext fun a => Fin.ext (by
    match a with
    | ⟨0, _⟩ => exact DP_lhs0 _ _
    | ⟨1, _⟩ => exact (DP_lhs1 _ _).trans hk)
  have er : DP.rhsIdx (ix2 p cc) ((contrEquiv1 DP 512 rfl rfl).symm k) = ix2 k cc := funext fun a => Fin.ext (by
    match a with
    | ⟨0, _⟩ => exact (DP_rhs0 _ _).trans hk
    | ⟨1, _⟩ => exact DP_rhs1 _ _)
  rw [el, er]

/-! ## The payloads -/

variable (x0 : Vec Ideal S2048x512 .f32) (x1 : Vec Ideal S512x512 .bf16) (x2 : Vec Ideal S1x512 .f32) (x3 : Vec Ideal S512x512 .bf16)
  (mp lp : Vec Ideal S2048x1 .f32) (ap : Vec Ideal S2048x512 .f32)

/-- The block of scores. -/
def score (r : Fin 2048) (q : Fin 512) : EReal :=
  (∑ e : Fin 512, (x0 (ix2 r e) : EReal) * (x1 (ix2 q e) : EReal)) + (x2 (ix2 (0 : Fin 1) q) : EReal)

theorem pay7_apply (r : Fin 2048) (q : Fin 512) : k0_pay7 (F := Ideal) x0 x1 x2 (ix2 r q) = score x0 x1 x2 r q := by
  unfold k0_pay7 score
  show _ + _ = _
  refine congrArg₂ (· + ·) ?_ ?_
  · simp only [shapeCast_self]
    exact mmT_apply (φ₁ := .bf16) (φ₂ := .bf16) _ _ r q
  · simp only [shapeCast_self]
    exact broadcastTo_1b_ab_apply _ _ r q

/-- The new running maximum of row r. -/
def newMax (r : Fin 2048) : EReal :=
  max (mp (ix2 r (0 : Fin 1)) : EReal) ((Finset.univ : Finset (Fin 512)).fold max ⊥ (fun q => score x0 x1 x2 r q))

theorem pay8_apply (r : Fin 2048) : k0_pay8 (F := Ideal) x0 x1 x2 mp (ix2 r (0 : Fin 1)) = newMax x0 x1 x2 mp r := by
  unfold k0_pay8 newMax
  show max _ _ = _
  refine congrArg (max _) ?_
  refine (shapeCast_a_a1_apply _ _ r 0).trans ?_
  refine (rowmax_apply _ _ _ r).trans ?_
  exact congrArg (fun f => Finset.fold max (⊥ : EReal) f (Finset.univ : Finset (Fin 512))) (funext fun q => pay7_apply x0 x1 x2 r q)

/-- The exponential of a score against the new maximum. -/
theorem pay9_apply (r : Fin 2048) (q : Fin 512) :
    k0_pay9 (F := Ideal) x0 x1 x2 mp (ix2 r q) = Ideal.exp (score x0 x1 x2 r q - newMax x0 x1 x2 mp r) := by
  unfold k0_pay9
  show Ideal.exp (_ - _) = _
  refine congrArg Ideal.exp (congrArg₂ (· - ·) (pay7_apply x0 x1 x2 r q) ?_)
  exact (broadcastTo_a1_ab_apply _ _ r q).trans (pay8_apply x0 x1 x2 mp r)

/-- The correction factor of row r. -/
theorem pay10_apply (r : Fin 2048) :
    k0_pay10 (F := Ideal) x0 x1 x2 mp (ix2 r (0 : Fin 1)) = Ideal.exp ((mp (ix2 r (0 : Fin 1)) : EReal) - newMax x0 x1 x2 mp r) := by
  unfold k0_pay10
  show Ideal.exp (_ - _) = _
  exact congrArg Ideal.exp (congrArg (_ - ·) (pay8_apply x0 x1 x2 mp r))

/-- The new normaliser of row r. -/
theorem pay11_apply (r : Fin 2048) :
    k0_pay11 (F := Ideal) x0 x1 x2 mp lp (ix2 r (0 : Fin 1))
      = Ideal.exp ((mp (ix2 r (0 : Fin 1)) : EReal) - newMax x0 x1 x2 mp r) * (lp (ix2 r (0 : Fin 1)) : EReal)
        + ∑ q : Fin 512, Ideal.exp (score x0 x1 x2 r q - newMax x0 x1 x2 mp r) := by
  unfold k0_pay11
  simp only [shapeCast_self]
  show _ * _ + _ = _
  refine congrArg₂ (· + ·) (congrArg (· * _) (pay10_apply x0 x1 x2 mp r)) ?_
  refine (shapeCast_a_a1_apply _ _ r 0).trans ?_
  refine (rowsum_apply _ _ _ r).trans ?_
  exact Finset.sum_congr rfl fun q _ => pay9_apply x0 x1 x2 mp r q

/-- The block's weighted values at (r, cc). -/
theorem pay12_apply (r : Fin 2048) (cc : Fin 512) :
    k0_pay12 (F := Ideal) x0 x1 x2 mp x3 (ix2 r cc)
      = ∑ q : Fin 512, Ideal.exp (score x0 x1 x2 r q - newMax x0 x1 x2 mp r) * (x3 (ix2 q cc) : EReal) := by
  unfold k0_pay12
  simp only [shapeCast_self]
  refine (mmP_apply (φ₁ := .bf16) (φ₂ := .bf16) _ _ r cc).trans ?_
  exact Finset.sum_congr rfl fun q _ => congrArg (· * _) (pay9_apply x0 x1 x2 mp r q)

/-- The accumulator's update. -/
theorem pay1_apply (al : FVec Ideal S2048x1 .f32) (pv : FVec Ideal S2048x512 .f32) (r : Fin 2048) (cc : Fin 512) :
    k0_pay1 (F := Ideal) al pv ap (ix2 r cc) = (al (ix2 r (0 : Fin 1)) : EReal) * (ap (ix2 r cc) : EReal) + (pv (ix2 r cc) : EReal) := by
  unfold k0_pay1
  simp only [shapeCast_self]
  show _ * _ + _ = _
  exact congrArg (· * _ + _) (broadcastTo_a1_ab_apply _ _ r cc)

theorem pay2_eq (v : FVec Ideal S2048x1 .f32) : k0_pay2 (F := Ideal) v = v := by
  unfold k0_pay2
  exact shapeCast_self _ _

/-- The output block: accumulator times the reciprocal of the normaliser, plus the input. -/
theorem pay3_apply (acc : Vec Ideal S2048x512 .f32) (l : Vec Ideal S2048x1 .f32) (r : Fin 2048) (cc : Fin 512) :
    k0_pay3 (F := Ideal) acc l x0 (ix2 r cc)
      = (acc (ix2 r cc) : EReal) * Ideal.div 1 (l (ix2 r (0 : Fin 1)) : EReal) + (x0 (ix2 r cc) : EReal) := by
  unfold k0_pay3
  simp only [shapeCast_self]
  show _ * _ + _ = _
  refine congrArg (_ * · + _) ?_
  refine (broadcastTo_a1_ab_apply _ _ r cc).trans ?_
  show Ideal.div (Ideal.ofBits .f32 0x3F800000#32) _ = _
  rw [ofBits_one]

theorem pay4_apply (j : S2048x512.Idx) : k0_pay4 (F := Ideal) j = 0 := by
  unfold k0_pay4
  simp only [shapeCast_self]
  exact ofBits_zero

theorem pay5_apply (j : S2048x1.Idx) : k0_pay5 (F := Ideal) j = ⊥ := by
  unfold k0_pay5
  simp only [shapeCast_self]
  exact ofBits_neginf

theorem pay6_apply (j : S2048x1.Idx) : k0_pay6 (F := Ideal) j = 0 := by
  unfold k0_pay6
  simp only [shapeCast_self]
  exact ofBits_zero

end Cert.KernelIdeal.Payload
end
-- ==== Proof.Softmax.lean ====
import Idealize.ShloMosaic.PureOps.Ideal

/-!
The mathematics of a softmax-weighted sum computed block by block with a running maximum.

For scores `L k` and weights `w k` (reals), `wsum L w N μ = ∑_{k<N} exp (L k - μ) · w k`. Shifting the reference point
from `μ` to `μ'` multiplies the sum by `exp (μ - μ')`; hence (1) the block-by-block update "rescale what is held by
`exp (μ - μ')`, add the new block taken against `μ'`" keeps the sum at its closed form, whatever reference points are
used, and (2) the quotient `wsum L w N μ / wsum L 1 N μ` does not depend on `μ` at all. Everything is finite, so the
extended-real operations agree with the real ones; the lemmas of the second half say so for each step.
-/

noncomputable section

namespace Cert.Softmax

open Finset Idealize.ShloMosaic

/-! ## Over the reals -/

/-- The weighted sum of exponentials of the first `N` scores, taken against the reference point `μ`. -/
def wsum (L w : ℕ → ℝ) (N : ℕ) (μ : ℝ) : ℝ := ∑ k ∈ range N, Real.exp (L k - μ) * w k

/-- Changing the reference point rescales the sum. -/
theorem wsum_shift (L w : ℕ → ℝ) (N : ℕ) (μ μ' : ℝ) : Real.exp (μ - μ') * wsum L w N μ = wsum L w N μ' := by
  unfold wsum
  rw [Finset.mul_sum]
  refine Finset.sum_congr rfl fun k _ => ?_
  rw [← mul_assoc, ← Real.exp_add]
  congr 2
  ring

/-- One block more: rescale the sum held and add the block's terms taken against the new reference point. -/
theorem wsum_step (L w : ℕ → ℝ) (N B : ℕ) (μ μ' : ℝ) :
    Real.exp (μ - μ') * wsum L w N μ + ∑ q ∈ range B, Real.exp (L (N + q) - μ') * w (N + q) = wsum L w (N + B) μ' := by
  rw [wsum_shift]
  unfold wsum
  rw [Finset.sum_range_add]

theorem wsum_zero_block (L w : ℕ → ℝ) (B : ℕ) (μ' : ℝ) :
    ∑ q ∈ range B, Real.exp (L (0 + q) - μ') * w (0 + q) = wsum L w (0 + B) μ' := by
  unfold wsum
  rw [Finset.sum_range_add]
  simp

theorem wsum_one_pos (L : ℕ → ℝ) (N : ℕ) (hN : 0 < N) (μ : ℝ) : 0 < wsum L (fun _ => 1) N μ := by
  unfold wsum
  refine Finset.sum_pos (fun k _ => ?_) ⟨0, Finset.mem_range.mpr hN⟩
  rw [mul_one]
  exact Real.exp_pos _

/-- The softmax-weighted sum, taken against the reference point `μ`. -/
def quot (L w : ℕ → ℝ) (N : ℕ) (μ : ℝ) : ℝ := wsum L w N μ * (1 / wsum L (fun _ => 1) N μ)

/-- It does not depend on the reference point. -/
theorem quot_shift (L w : ℕ → ℝ) (N : ℕ) (hN : 0 < N) (μ μ' : ℝ) : quot L w N μ = quot L w N μ' := by
  unfold quot
  rw [← wsum_shift L w N μ μ', ← wsum_shift L (fun _ => 1) N μ μ']
  have hD := (wsum_one_pos L N hN μ).ne'
  have he := (Real.exp_pos (μ - μ')).ne'
  field_simp

/-- Normalising each exponential first and then weighting gives the same quotient. -/
theorem sum_normalised (L w : ℕ → ℝ) (N : ℕ) (μ : ℝ) :
    ∑ k ∈ range N, Real.exp (L k - μ) * (1 / wsum L (fun _ => 1) N μ) * w k = quot L w N μ := by
  unfold quot
  rw [show wsum L w N μ = ∑ k ∈ range N, Real.exp (L k - μ) * w k from rfl, Finset.sum_mul]
  refine Finset.sum_congr rfl fun k _ => ?_
  ring

/-! ## Over the extended reals, on finite data -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals (at least one), taken from minus infinity, is a real. -/
theorem fold_max_real {ι : Type*} (s : Finset ι) (hs : s.Nonempty) (f : ι → ℝ) :
    ∃ μ : ℝ, s.fold max (⊥ : EReal) (fun i => (f i : EReal)) = (μ : EReal) := by
  have hbot : s.fold max (⊥ : EReal) (fun i => (f i : EReal)) ≠ ⊥ := by
    refine (bot_lt_iff_ne_bot).mp ?_
    rw [Finset.lt_fold_max]
    obtain ⟨x, hx⟩ := hs
    exact Or.inr ⟨x, hx, EReal.bot_lt_coe _⟩
  have htop : s.fold max (⊥ : EReal) (fun i => (f i : EReal)) ≠ ⊤ := by
    refine (lt_top_iff_ne_top).mp ?_
    rw [Finset.fold_max_lt]
    exact ⟨bot_lt_top, fun x _ => EReal.coe_lt_top _⟩
  exact ⟨_, (EReal.coe_toReal htop hbot).symm⟩

variable {ι : Type*} [Fintype ι] [Nonempty ι]

/-- The running maximum after a block of real scores is a real, whether it was minus infinity or a real before. -/
theorem newmax_real (lb : ι → ℝ) (m0 : EReal) (h0 : m0 = ⊥ ∨ ∃ μ : ℝ, m0 = (μ : EReal)) :
    ∃ μ' : ℝ, max m0 ((Finset.univ : Finset ι).fold max (⊥ : EReal) (fun q => (lb q : EReal))) = (μ' : EReal) := by
  obtain ⟨μb, hμb⟩ := fold_max_real (Finset.univ : Finset ι) Finset.univ_nonempty lb
  rw [hμb]
  rcases h0 with rfl | ⟨μ, rfl⟩
  · exact ⟨μb, max_eq_right bot_le⟩
  · exact ⟨max μ μb, (EReal.coe_strictMono.monotone.map_max).symm⟩

omit [Nonempty ι] in
/-- A later block: the rescaled sum held plus the block's terms, on real data. -/
theorem later_sum (lb vb : ι → ℝ) (μ μ' d : ℝ) :
    Ideal.exp ((μ : EReal) - (μ' : EReal)) * (d : EReal) + ∑ q, Ideal.exp ((lb q : EReal) - (μ' : EReal)) * (vb q : EReal)
      = ((Real.exp (μ - μ') * d + ∑ q, Real.exp (lb q - μ') * vb q : ℝ) : EReal) := by
  rw [EReal.coe_add, coe_sum, EReal.coe_mul, ← EReal.coe_sub, Ideal.exp_coe]
  refine congrArg (_ + ·) (Finset.sum_congr rfl fun q _ => ?_)
  rw [← EReal.coe_sub, Ideal.exp_coe, EReal.coe_mul]

omit [Nonempty ι] in
/-- The same with unit weights. -/
theorem later_sum_one (lb : ι → ℝ) (μ μ' d : ℝ) :
    Ideal.exp ((μ : EReal) - (μ' : EReal)) * (d : EReal) + ∑ q, Ideal.exp ((lb q : EReal) - (μ' : EReal))
      = ((Real.exp (μ - μ') * d + ∑ q, Real.exp (lb q - μ') * (fun _ : ι => (1 : ℝ)) q : ℝ) : EReal) := by
  rw [← later_sum lb (fun _ => 1) μ μ' d]
  refine congrArg (_ + ·) (Finset.sum_congr rfl fun q _ => ?_)
  rw [EReal.coe_one, mul_one]

omit [Nonempty ι] in
/-- The first block: whatever multiplies the empty sum held, only the block's terms remain. -/
theorem first_sum (lb vb : ι → ℝ) (μ' : ℝ) (e : EReal) :
    e * 0 + ∑ q, Ideal.exp ((lb q : EReal) - (μ' : EReal)) * (vb q : EReal)
      = ((∑ q, Real.exp (lb q - μ') * vb q : ℝ) : EReal) := by
  rw [mul_zero, zero_add, coe_sum]
  refine Finset.sum_congr rfl fun q _ => ?_
  rw [← EReal.coe_sub, Ideal.exp_coe, EReal.coe_mul]

omit [Nonempty ι] in
theorem first_sum_one (lb : ι → ℝ) (μ' : ℝ) (e : EReal) :
    e * 0 + ∑ q, Ideal.exp ((lb q : EReal) - (μ' : EReal))
      = ((∑ q, Real.exp (lb q - μ') * (fun _ : ι => (1 : ℝ)) q : ℝ) : EReal) := by
  rw [← first_sum lb (fun _ => 1) μ' e]
  refine congrArg (_ + ·) (Finset.sum_congr rfl fun q _ => ?_)
  rw [EReal.coe_one, mul_one]

/-- A block of `B` further terms, indexed by `Fin B`. -/
theorem wsum_step_fin (L w : ℕ → ℝ) (N B : ℕ) (μ μ' : ℝ) :
    Real.exp (μ - μ') * wsum L w N μ + ∑ q : Fin B, Real.exp (L (N + q.val) - μ') * w (N + q.val) = wsum L w (N + B) μ' := by
  rw [Fin.sum_univ_eq_sum_range (fun q => Real.exp (L (N + q) - μ') * w (N + q)) B]
  exact wsum_step L w N B μ μ'

theorem wsum_first_fin (L w : ℕ → ℝ) (B : ℕ) (μ' : ℝ) :
    ∑ q : Fin B, Real.exp (L (0 + q.val) - μ') * w (0 + q.val) = wsum L w (0 + B) μ' := by
  rw [Fin.sum_univ_eq_sum_range (fun q => Real.exp (L (0 + q) - μ') * w (0 + q)) B]
  exact wsum_zero_block L w B μ'

/-- The output entry on real data with a non-zero normaliser: the softmax-weighted sum, whatever the reference point. -/
theorem final_quot (L w : ℕ → ℝ) (N : ℕ) (hN : 0 < N) (μ : ℝ) (x : EReal) :
    ((wsum L w N μ : ℝ) : EReal) * Ideal.div 1 ((wsum L (fun _ => 1) N μ : ℝ) : EReal) + x
      = ((quot L w N 0 : ℝ) : EReal) + x := by
  rw [Ideal.div_coe (wsum_one_pos L N hN μ).ne', one_mul, ← EReal.coe_mul, ← quot_shift L w N hN μ 0]
  rfl

/-- A normalised exponential on real data. -/
theorem normalised (e d : ℝ) (hd : d ≠ 0) : Ideal.div (e : EReal) (d : EReal) = ((e * (1 / d) : ℝ) : EReal) := by
  rw [Ideal.div_coe hd, EReal.coe_mul]

end Cert.Softmax

end
-- ==== Proof.Rows.lean ====
import proofs.«146490_j30142080483336_2_alg».proof.Proof.Payload
import proofs.«146490_j30142080483336_2_alg».proof.Proof.Softmax

set_option maxRecDepth 16384

noncomputable section

open Idealize.ShloMosaic Idealize.ShloMosaic.TcCoe Idealize.SL.Sem Idealize.ShloMosaic.Tactic
open Idealize.ShloMosaic.Pipeline (Dat)

/-! One row of a block through one grid point. If the scores of the block are the reals `L (N + q)` and the value
    entries the reals `wc cc (N + q)`, and the three carried buffers hold, for this row, a real maximum `μ` and the
    closed-form sums over the first `N` slots taken against `μ`, then after the point they hold a real maximum `μ'`
    and the closed-form sums over the first `N + 512` slots taken against `μ'`. At the first point of a row block the
    buffers start at minus infinity and zero and the same conclusion holds with `N = 0`. At the last point the output
    entry is the softmax-weighted sum plus the input entry. -/
namespace Cert.KernelIdeal.Rows
open Cert.KernelIdeal Cert.KernelIdeal.Gen Idealize.ShloMosaic.ValueIdx Cert.KernelIdeal.Payload Cert.Softmax

variable (x0 : Vec Ideal S2048x512 .f32) (x1 : Vec Ideal S512x512 .bf16) (x2 : Vec Ideal S1x512 .f32) (x3 : Vec Ideal S512x512 .bf16)
  (r : Fin 2048) (L : ℕ → ℝ) (wc : Fin 512 → ℕ → ℝ) (N : ℕ)

theorem step_later
    (hs : ∀ q : Fin 512, score x0 x1 x2 r q = ((L (N + q.val) : ℝ) : EReal))
    (hv : ∀ (q cc : Fin 512), (x3 (ix2 q cc) : EReal) = ((wc cc (N + q.val) : ℝ) : EReal))
    (mp lp : Vec Ideal S2048x1 .f32) (ap : Vec Ideal S2048x512 .f32) (μ : ℝ)
    (hm : (mp (ix2 r (0 : Fin 1)) : EReal) = (μ : EReal))
    (hl : (lp (ix2 r (0 : Fin 1)) : EReal) = ((wsum L (fun _ => 1) N μ : ℝ) : EReal))
    (ha : ∀ cc : Fin 512, (ap (ix2 r cc) : EReal) = ((wsum L (wc cc) N μ : ℝ) : EReal)) :
    ∃ μ' : ℝ, (k0_pay2 (F := Ideal) (k0_pay8 x0 x1 x2 mp) (ix2 r (0 : Fin 1)) : EReal) = (μ' : EReal)
      ∧ (k0_pay11 (F := Ideal) x0 x1 x2 mp lp (ix2 r (0 : Fin 1)) : EReal) = ((wsum L (fun _ => 1) (N + 512) μ' : ℝ) : EReal)
      ∧ ∀ cc : Fin 512, (k0_pay1 (F := Ideal) (k0_pay10 x0 x1 x2 mp) (k0_pay12 x0 x1 x2 mp x3) ap (ix2 r cc) : EReal)
          = ((wsum L (wc cc) (N + 512) μ' : ℝ) : EReal) := by
  have hnm : newMax x0 x1 x2 mp r
      = max (μ : EReal) ((Finset.univ : Finset (Fin 512)).fold max ⊥ (fun q => ((L (N + q.val) : ℝ) : EReal))) := by
    unfold newMax
    rw [hm]
    exact congrArg (fun f => max (μ : EReal) (Finset.fold max (⊥ : EReal) f Finset.univ)) (funext hs)
  obtain ⟨μ', hμ'⟩ := newmax_real (fun q : Fin 512 => L (N + q.val)) (μ : EReal) (Or.inr ⟨μ, rfl⟩)
  have hnm' : newMax x0 x1 x2 mp r = (μ' : EReal) := hnm.trans hμ'
  refine ⟨μ', ?_, ?_, fun cc => ?_⟩
  · rw [pay2_eq]; exact (pay8_apply x0 x1 x2 mp r).trans hnm'
  · rw [pay11_apply, hnm', hm, hl]
    simp only [hs]
    refine (later_sum_one (fun q : Fin 512 => L (N + q.val)) μ μ' _).trans (congrArg (fun x : ℝ => (x : EReal)) ?_)
    exact wsum_step_fin L (fun _ => 1) N 512 μ μ'
  · rw [pay1_apply, pay10_apply, pay12_apply, hnm', hm, ha cc]
    simp only [hs, hv]
    refine (later_sum (fun q : Fin 512 => L (N + q.val)) (fun q : Fin 512 => wc cc (N + q.val)) μ μ' _).trans
      (congrArg (fun x : ℝ => (x : EReal)) ?_)
    exact wsum_step_fin L (wc cc) N 512 μ μ'

theorem step_first
    (hs : ∀ q : Fin 512, score x0 x1 x2 r q = ((L (0 + q.val) : ℝ) : EReal))
    (hv : ∀ (q cc : Fin 512), (x3 (ix2 q cc) : EReal) = ((wc cc (0 + q.val) : ℝ) : EReal)) :
    ∃ μ' : ℝ, (k0_pay2 (F := Ideal) (k0_pay8 x0 x1 x2 (k0_pay5 (F := Ideal))) (ix2 r (0 : Fin 1)) : EReal) = (μ' : EReal)
      ∧ (k0_pay11 (F := Ideal) x0 x1 x2 (k0_pay5 (F := Ideal)) (k0_pay6 (F := Ideal)) (ix2 r (0 : Fin 1)) : EReal) = ((wsum L (fun _ => 1) (0 + 512) μ' : ℝ) : EReal)
      ∧ ∀ cc : Fin 512, (k0_pay1 (F := Ideal) (k0_pay10 x0 x1 x2 (k0_pay5 (F := Ideal))) (k0_pay12 x0 x1 x2 (k0_pay5 (F := Ideal)) x3) (k0_pay4 (F := Ideal)) (ix2 r cc) : EReal)
          = ((wsum L (wc cc) (0 + 512) μ' : ℝ) : EReal) := by
  have hnm : newMax x0 x1 x2 (k0_pay5 (F := Ideal)) r
      = max (⊥ : EReal) ((Finset.univ : Finset (Fin 512)).fold max ⊥ (fun q => ((L (0 + q.val) : ℝ) : EReal))) := by
    unfold newMax
    rw [pay5_apply]
    exact congrArg (fun f => max (⊥ : EReal) (Finset.fold max (⊥ : EReal) f Finset.univ)) (funext hs)
  obtain ⟨μ', hμ'⟩ := newmax_real (fun q : Fin 512 => L (0 + q.val)) (⊥ : EReal) (Or.inl rfl)
  have hnm' : newMax x0 x1 x2 (k0_pay5 (F := Ideal)) r = (μ' : EReal) := hnm.trans hμ'
  refine ⟨μ', ?_, ?_, fun cc => ?_⟩
  · rw [pay2_eq]; exact (pay8_apply x0 x1 x2 _ r).trans hnm'
  · rw [pay11_apply, hnm', pay6_apply]
    simp only [hs]
    refine (first_sum_one (fun q : Fin 512 => L (0 + q.val)) μ' _).trans (congrArg (fun x : ℝ => (x : EReal)) ?_)
    exact wsum_first_fin L (fun _ => 1) 512 μ'
  · rw [pay1_apply, pay12_apply, hnm', pay4_apply]
    simp only [hs, hv]
    refine (first_sum (fun q : Fin 512 => L (0 + q.val)) (fun q : Fin 512 => wc cc (0 + q.val)) μ' _).trans
      (congrArg (fun x : ℝ => (x : EReal)) ?_)
    exact wsum_first_fin L (wc cc) 512 μ'

theorem out_last (acc : Vec Ideal S2048x512 .f32) (l : Vec Ideal S2048x1 .f32) (cc : Fin 512) (μ' : ℝ)
    (hl : (l (ix2 r (0 : Fin 1)) : EReal) = ((wsum L (fun _ => 1) 16384 μ' : ℝ) : EReal))
    (ha : (acc (ix2 r cc) : EReal) = ((wsum L (wc cc) 16384 μ' : ℝ) : EReal)) :
    (k0_pay3 (F := Ideal) acc l x0 (ix2 r cc) : EReal) = ((quot L (wc cc) 16384 0 : ℝ) : EReal) + (x0 (ix2 r cc) : EReal) := by
  rw [pay3_apply, hl, ha]
  exact final_quot L (wc cc) 16384 (by norm_num) μ' _

end Cert.KernelIdeal.Rows
end
-- ==== Proof.Spec.lean ====
import Idealize.ShloMosaic.PureOps.Ideal
import Idealize.ShloMosaic.Lib.ValueIdx
import proofs.«146490_j30142080483336_2_alg».proof.Proof.Softmax

/-!
The function both programs compute, over four finite arrays: tokens `X` [16384, 512], projection weights `W` [16384, 512],
bias `B` [1, 16384] and value embeddings `Vv` [16384, 512]. Token `R` is scored against slot `k` by
`⟨X R, W k⟩ + B k`; the result at `(R, cc)` is the softmax of row `R`'s scores applied to column `cc` of `Vv`, plus
`X (R, cc)`. The softmax-weighted sum is written with reference point `0` (it does not depend on the reference point).
-/

noncomputable section

namespace Cert.Spec

open Idealize.ShloMosaic Idealize.ShloMosaic.ValueIdx

abbrev SX : Shape := ⟨2, ![16384, 512]⟩
abbrev SB : Shape := ⟨2, ![1, 16384]⟩

/-- A slot index from a natural number (reduced modulo the slot count, so that sums may range over naturals). -/
def nidx (k : ℕ) : Fin 16384 := ⟨k % 16384, Nat.mod_lt _ (by norm_num)⟩

theorem nidx_of_lt {k : ℕ} (h : k < 16384) : nidx k = ⟨k, h⟩ := Fin.ext (Nat.mod_eq_of_lt h)

variable (X W Vv : SX.Idx → EReal) (B : SB.Idx → EReal)

/-- The score of token `R` against slot `k`. -/
def escore (R k : Fin 16384) : EReal := (∑ e : Fin 512, X (ix2 R e) * W (ix2 k e)) + B (ix2 (0 : Fin 1) k)

/-- The same as a real, for a slot given as a natural number. -/
def L (R : Fin 16384) (k : ℕ) : ℝ := (escore X W B R (nidx k)).toReal

/-- Column `cc` of the value embeddings as reals. -/
def wcol (cc : Fin 512) (k : ℕ) : ℝ := (Vv (ix2 (nidx k) cc)).toReal

/-- The result. -/
def G (j : SX.Idx) : EReal := ((Softmax.quot (L X W B (j 0)) (wcol Vv (j 1)) 16384 0 : ℝ) : EReal) + X j

/-- Every entry of the four arrays is a real number. -/
structure Finite : Prop where
  hX : ∀ j, X j = ((X j).toReal : EReal)
  hW : ∀ j, W j = ((W j).toReal : EReal)
  hV : ∀ j, Vv j = ((Vv j).toReal : EReal)
  hB : ∀ j, B j = ((B j).toReal : EReal)

variable {X W Vv B}

theorem escore_real (h : Finite X W Vv B) (R k : Fin 16384) : escore X W B R k = ((escore X W B R k).toReal : EReal) := by
  have e : escore X W B R k
      = ((∑ e : Fin 512, (X (ix2 R e)).toReal * (W (ix2 k e)).toReal + (B (ix2 (0 : Fin 1) k)).toReal : ℝ) : EReal) := by
    unfold escore
    rw [EReal.coe_add, Softmax.coe_sum]
    refine congrArg₂ (· + ·) (Finset.sum_congr rfl fun e _ => ?_) (h.hB _)
    rw [EReal.coe_mul, ← h.hX, ← h.hW]
  rw [e, EReal.toReal_coe]

theorem escore_eq_L (h : Finite X W Vv B) (R : Fin 16384) (k : ℕ) (hk : k < 16384) :
    escore X W B R ⟨k, hk⟩ = ((L X W B R k : ℝ) : EReal) := by
  unfold L
  rw [nidx_of_lt hk]
  exact escore_real h R _

theorem V_eq_wcol (h : Finite X W Vv B) (cc : Fin 512) (k : ℕ) (hk : k < 16384) :
    Vv (ix2 (⟨k, hk⟩ : Fin 16384) cc) = ((wcol Vv cc k : ℝ) : EReal) := by
  unfold wcol
  rw [nidx_of_lt hk]
  exact h.hV _

end Cert.Spec

end
-- ==== Proof.Flash.lean ====
import proofs.«146490_j30142080483336_2_alg».proof.Proof.Cases
import proofs.«146490_j30142080483336_2_alg».proof.Proof.Rows
import proofs.«146490_j30142080483336_2_alg».proof.Proof.Blocks
import proofs.«146490_j30142080483336_2_alg».proof.Proof.Spec

set_option maxRecDepth 16384

noncomputable section

open Idealize.ShloMosaic Idealize.ShloMosaic.TcCoe Idealize.SL.Sem Idealize.ShloMosaic.Tactic
open Idealize.ShloMosaic.Pipeline (Dat)

/-! The carried buffers after every grid point, by induction along the grid. After point `t` (token block `t / 32`,
    slot block `t % 32`) row `r` of the three buffers holds a real maximum `μ` and the two closed-form sums over the
    first `512·(t % 32) + 512` slots of token `rowOf t r`, taken against `μ`. At the last slot block the output block
    is the specification's function at the block's entries. -/
namespace Cert.KernelIdeal.Flash
open Cert.KernelIdeal Cert.KernelIdeal.Gen Idealize.ShloMosaic.ValueIdx Cert.KernelIdeal.Blocks Cert.KernelIdeal.Payload Cert.Softmax Cert.KernelIdeal.Cases

variable (m : (ℓ : Loc nD τ sig) → Buf (Elt Ideal) ℓ) (c : Dev nD)

/-- The real scores of the token that row `r` of point `t`'s block is, and the real value columns. -/
abbrev Lr (t : Fin cfg0.N) (r : Fin 2048) : ℕ → ℝ := Spec.L (Xa m c) (Wa m c) (Ba m c) (rowOf t r)
abbrev Wc (cc : Fin 512) : ℕ → ℝ := Spec.wcol (Va m c) cc

/-! ## The row invariant -/

variable (hfin : Spec.Finite (Xa m c) (Wa m c) (Va m c) (Ba m c))

include hfin in
theorem score_eq (t : Fin cfg0.N) (r : Fin 2048) (q : Fin 512) :
    score (iblk m c 0 t) (iblk m c 1 t) (iblk m c 2 t) r q = ((Lr m c t r (512 * (t.val % 32) + q.val) : ℝ) : EReal) := by
  have hk : 512 * (t.val % 32) + q.val < 16384 := (colOf t q).isLt
  refine Eq.trans ?_ (Spec.escore_eq_L hfin (rowOf t r) _ hk)
  unfold score Spec.escore
  refine congrArg₂ (· + ·) (Finset.sum_congr rfl fun e _ => ?_) (blkB m c t q)
  exact congrArg₂ (· * ·) (blkX m c t r e) (blkW m c t q e)

include hfin in
theorem value_eq (t : Fin cfg0.N) (q cc : Fin 512) :
    ((iblk m c 3 t : Vec Ideal S512x512 .bf16) (ix2 q cc) : EReal) = ((Wc m c cc (512 * (t.val % 32) + q.val) : ℝ) : EReal) :=
  (blkV m c t q cc).trans (Spec.V_eq_wcol hfin cc _ (colOf t q).isLt)

/-- Row by row: a real maximum and the two closed-form sums over the slots done so far. -/
def RowState (t : Fin cfg0.N) (s : Vec Ideal S2048x512 .f32 × Vec Ideal S2048x1 .f32 × Vec Ideal S2048x1 .f32) : Prop :=
  ∀ r : Fin 2048, ∃ μ : ℝ, (s.2.1 (ix2 r (0 : Fin 1)) : EReal) = (μ : EReal)
    ∧ (s.2.2 (ix2 r (0 : Fin 1)) : EReal) = ((wsum (Lr m c t r) (fun _ => 1) (512 * (t.val % 32) + 512) μ : ℝ) : EReal)
    ∧ ∀ cc : Fin 512, (s.1 (ix2 r cc) : EReal) = ((wsum (Lr m c t r) (Wc m c cc) (512 * (t.val % 32) + 512) μ : ℝ) : EReal)

include hfin in
theorem first_point (t : Fin cfg0.N) (h0 : t.val % 32 = 0) :
    RowState m c t (k0_pay1 (F := Ideal) (k0_pay10 (iblk m c 0 t) (iblk m c 1 t) (iblk m c 2 t) (k0_pay5 (F := Ideal))) (k0_pay12 (iblk m c 0 t) (iblk m c 1 t) (iblk m c 2 t) (k0_pay5 (F := Ideal)) (iblk m c 3 t)) (k0_pay4 (F := Ideal)), k0_pay2 (F := Ideal) (k0_pay8 (iblk m c 0 t) (iblk m c 1 t) (iblk m c 2 t) (k0_pay5 (F := Ideal))), k0_pay11 (F := Ideal) (iblk m c 0 t) (iblk m c 1 t) (iblk m c 2 t) (k0_pay5 (F := Ideal)) (k0_pay6 (F := Ideal))) := by
  intro r
  have hN : 512 * (t.val % 32) = 0 := by omega
  have hs : ∀ q : Fin 512, score (iblk m c 0 t) (iblk m c 1 t) (iblk m c 2 t) r q = ((Lr m c t r (0 + q.val) : ℝ) : EReal) := fun q => by
    have := score_eq m c hfin t r q; rwa [hN] at this
  have hv : ∀ q cc : Fin 512, ((iblk m c 3 t : Vec Ideal S512x512 .bf16) (ix2 q cc) : EReal) = ((Wc m c cc (0 + q.val) : ℝ) : EReal) := fun q cc => by
    have := value_eq m c hfin t q cc; rwa [hN] at this
  obtain ⟨μ', e1, e2, e3⟩ := Rows.step_first (iblk m c 0 t) (iblk m c 1 t) (iblk m c 2 t) (iblk m c 3 t) r (Lr m c t r) (Wc m c) hs hv
  refine ⟨μ', e1, ?_, fun cc => ?_⟩
  · rw [hN]; exact e2
  · rw [hN]; exact e3 cc

include hfin in
theorem later_point (t : Fin cfg0.N) (h0 : ¬t.val % 32 = 0)
    (prev : Vec Ideal S2048x512 .f32 × Vec Ideal S2048x1 .f32 × Vec Ideal S2048x1 .f32)
    (hprev : RowState m c ⟨t.val - 1, Nat.lt_of_le_of_lt (Nat.sub_le _ _) t.isLt⟩ prev) :
    RowState m c t (k0_pay1 (F := Ideal) (k0_pay10 (iblk m c 0 t) (iblk m c 1 t) (iblk m c 2 t) prev.2.1) (k0_pay12 (iblk m c 0 t) (iblk m c 1 t) (iblk m c 2 t) prev.2.1 (iblk m c 3 t)) prev.1, k0_pay2 (F := Ideal) (k0_pay8 (iblk m c 0 t) (iblk m c 1 t) (iblk m c 2 t) prev.2.1), k0_pay11 (F := Ideal) (iblk m c 0 t) (iblk m c 1 t) (iblk m c 2 t) prev.2.1 prev.2.2) := by
  intro r
  obtain ⟨μ, hm, hl, ha⟩ := hprev r
  have hrow : rowOf ⟨t.val - 1, Nat.lt_of_le_of_lt (Nat.sub_le _ _) t.isLt⟩ r = rowOf t r := Fin.ext (by
    show 2048 * ((t.val - 1) / 32) + r.val = 2048 * (t.val / 32) + r.val
    have : (t.val - 1) / 32 = t.val / 32 := by omega
    rw [this])
  have hN : 512 * ((t.val - 1) % 32) + 512 = 512 * (t.val % 32) := by omega
  have hL : Lr m c ⟨t.val - 1, Nat.lt_of_le_of_lt (Nat.sub_le _ _) t.isLt⟩ r = Lr m c t r := by
    show Spec.L _ _ _ _ = Spec.L _ _ _ _
    rw [hrow]
  simp only [hL] at hl ha
  have hN' : 512 * (((⟨t.val - 1, Nat.lt_of_le_of_lt (Nat.sub_le _ _) t.isLt⟩ : Fin cfg0.N).val) % 32) + 512 = 512 * (t.val % 32) := hN
  rw [hN'] at hl ha
  exact Rows.step_later (iblk m c 0 t) (iblk m c 1 t) (iblk m c 2 t) (iblk m c 3 t) r (Lr m c t r) (Wc m c) (512 * (t.val % 32))
    (score_eq m c hfin t r) (value_eq m c hfin t) prev.2.1 prev.2.2 prev.1 μ hm hl ha

include hfin in
/-- The invariant after every point. -/
theorem state_all : ∀ (n : ℕ) (h : n < cfg0.N), RowState m c ⟨n, h⟩ (outsAt0 m c n h).2
  | 0, h => by
    rw [scr_A m c ⟨0, h⟩ (Nat.zero_mod _) (by show ¬0 % 32 = 31; decide)]
    exact first_point m c hfin ⟨0, h⟩ (Nat.zero_mod _)
  | n + 1, h => by
    have ih := state_all n (Nat.lt_of_succ_lt h)
    by_cases h0 : (n + 1) % 32 = 0
    · have h1 : ¬(n + 1) % 32 = 31 := by omega
      rw [scr_A m c ⟨n + 1, h⟩ h0 h1]
      exact first_point m c hfin ⟨n + 1, h⟩ h0
    · by_cases h1 : (n + 1) % 32 = 31
      · rw [scr_C m c ⟨n + 1, h⟩ h0 h1]
        exact later_point m c hfin ⟨n + 1, h⟩ h0 _ ih
      · rw [scr_B m c ⟨n + 1, h⟩ h0 h1]
        exact later_point m c hfin ⟨n + 1, h⟩ h0 _ ih

include hfin in
/-- At the last slot block the output block holds the specification's function. -/
theorem out_eq (t : Fin cfg0.N) (h1 : t.val % 32 = 31) (r : Fin 2048) (cc : Fin 512) :
    ((outsAt0 m c t.val t.isLt).1 (ix2 r cc) : EReal)
      = Spec.G (Xa m c) (Wa m c) (Va m c) (Ba m c) (ix2 (rowOf t r) cc) := by
  have h0 : ¬t.val % 32 = 0 := by omega
  have hst := state_all m c hfin t.val t.isLt
  rw [scr_C m c t h0 h1] at hst
  obtain ⟨μ', -, e2, e3⟩ := hst r
  have hN : 512 * (t.val % 32) + 512 = 16384 := by omega
  have hN' : 512 * (((⟨t.val, t.isLt⟩ : Fin cfg0.N).val) % 32) + 512 = 16384 := hN
  rw [hN'] at e2 e3
  rw [out_C m c t h0 h1]
  refine (Rows.out_last (iblk m c 0 t) r (Lr m c t r) (Wc m c) _ _ cc μ' e2 (e3 cc)).trans ?_
  unfold Spec.G
  exact congrArg (_ + ·) (blkX m c t r cc)

end Cert.KernelIdeal.Flash
end
-- ==== Proof.Final.lean ====
import proofs.«146490_j30142080483336_2_alg».proof.Proof.Flash
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

/-! From the blocks to the arrays. The output block is written back at the last slot block of each of the eight token
    blocks; those eight blocks tile the [16384, 512] result, so after the launch it holds the specification's function, and
    the operation after the launch reshapes it to [8, 2048, 512]. -/
namespace Cert.KernelIdeal.Final
open Cert.KernelIdeal Cert.KernelIdeal.Gen Idealize.ShloMosaic.ValueIdx Cert.KernelIdeal.Blocks Cert.KernelIdeal.Flash

variable (m : (ℓ : Loc nD τ sig) → Buf (Elt Ideal) ℓ) (ρ : Dev nD → PrngReg)

/-- The specification at the arrays the launch finds on device `c`. -/
abbrev Gk (c : Dev nD) : S16384x512.Idx → EReal := Spec.G (Xa m c) (Wa m c) (Va m c) (Ba m c)

theorem mem_blk (t : Fin cfg0.N) (i : S16384x512.Idx) :
    i ∈ ((cfg0.win 4).blk t).view.set ↔ ∀ a : Fin 2, win0_4.index t a * S2048x512.size a ≤ (i a).val
      ∧ (i a).val < win0_4.index t a * S2048x512.size a + S2048x512.size a := by
  show i ∈ ((View.whole main_call0_v4).slice (win0_4.rect t)).set ↔ _
  rw [View.set_slice_whole, Rect.mem_set_unit]
  exact Iff.rfl

variable (hfin : ∀ c : Dev nD, Spec.Finite (Xa m c) (Wa m c) (Va m c) (Ba m c))

include hfin in
/-- What a writing point writes back is its block of the specification's function. -/
theorem flushed_eq (c : Dev nD) (t : Fin cfg0.N) (hf : (cfg0.win 4).flush t = true) :
    (dats m 0 c).flushed 4 t = ((cfg0.win 4).blk t).view.read (Elt Ideal) (Gk m c) := by
  have h1 : t.val % 32 = 31 := (flush0_4 t).mp hf
  obtain ⟨-, -, -, -, -, -, -, -, e0, e1⟩ := idx_facts t
  show (cfg0.win 4).cut (grid0.coords t) ((dats m 0 c).after 4 t) = _
  rw [after0_4]
  have key : ∀ (r : Fin 2048) (cc : Fin 512), ((outsAt0 m c t.val t.isLt).1 : Vec Ideal S2048x512 .f32) (ix2 r cc)
      = Gk m c (((cfg0.win 4).blk t).view.emb (ix2 r cc)) := by
    intro r cc
    refine (out_eq m c (hfin c) t h1 r cc).trans (congrArg (Gk m c) (funext fun a => Fin.ext ?_))
    match a with
    | ⟨0, _⟩ => show 2048 * (t.val / 32) + r.val = win0_4.index t (0 : Fin 2) * 2048 + 1 * r.val; rw [e0]; omega
    | ⟨1, _⟩ => show cc.val = win0_4.index t (1 : Fin 2) * 512 + 1 * cc.val; rw [e1]; omega
  funext j
  obtain ⟨r, cc, rfl⟩ : ∃ (r : Fin 2048) (cc : Fin 512), j = ix2 r cc := ⟨j 0, j 1, eq_ix2 j⟩
  exact key r cc

/-- Every entry of the result lies in the block some writing point writes back. -/
theorem cover (i : S16384x512.Idx) :
    ∃ t : Fin cfg0.N, (cfg0.win 4).flush t = true ∧ i ∈ ((cfg0.win 4).blk t).view.set := by
  have hi0 : (i 0).val < 16384 := (i 0).isLt
  have hi1 : (i 1).val < 512 := (i 1).isLt
  have hN : cfg0.N = 256 := N_0
  have hlt : 32 * ((i 0).val / 2048) + 31 < cfg0.N := by omega
  refine ⟨⟨32 * ((i 0).val / 2048) + 31, hlt⟩, (flush0_4 _).mpr (by show (32 * ((i 0).val / 2048) + 31) % 32 = 31; omega), ?_⟩
  obtain ⟨-, -, -, -, -, -, -, -, e0, e1⟩ := idx_facts ⟨32 * ((i 0).val / 2048) + 31, hlt⟩
  rw [mem_blk]
  intro a
  match a with
  | ⟨0, _⟩ =>
    show win0_4.index ⟨32 * ((i 0).val / 2048) + 31, hlt⟩ (0 : Fin 2) * 2048 ≤ (i 0).val
      ∧ (i 0).val < win0_4.index ⟨32 * ((i 0).val / 2048) + 31, hlt⟩ (0 : Fin 2) * 2048 + 2048
    rw [e0]
    show (32 * ((i 0).val / 2048) + 31) / 32 * 2048 ≤ (i 0).val ∧ (i 0).val < (32 * ((i 0).val / 2048) + 31) / 32 * 2048 + 2048
    omega
  | ⟨1, _⟩ =>
    show win0_4.index ⟨32 * ((i 0).val / 2048) + 31, hlt⟩ (1 : Fin 2) * 512 ≤ (i 1).val
      ∧ (i 1).val < win0_4.index ⟨32 * ((i 0).val / 2048) + 31, hlt⟩ (1 : Fin 2) * 512 + 512
    rw [e1]
    omega

include hfin in
/-- The result array after the launch. -/
theorem final (c : Dev nD) : (dats m 0 c).arrAt 4 cfg0.N = Gk m c :=
  (dats m 0 c).arrAt_eq_of_cover 4 (Gk m c) (flushed_eq m hfin c) (fun i => cover i)

include hfin in
/-- The program's result: the operation after the launch reshapes the result array. -/
theorem tail (c : Dev nD) :
    Pipeline.afterTail₀ cfgs (dats m) 0 (V0 m) [hostOps1] c main_v0
      = shapeCast S8x2048x512 (Gk m c) shapeCasts_S16384x512_S8x2048x512 := by
  unfold Pipeline.afterTail₀
  show StableHlo.after hostOps1 _ (Proc.devRef .tc main_v0) = _
  after_results
  exact congrArg (fun v => shapeCast S8x2048x512 v shapeCasts_S16384x512_S8x2048x512)
    ((Pipeline.withArrays_arr spec0 launch0.win.arr_inj c _ _ 4).trans (final m hfin c))

include hfin in
/-- The run, read: the result at the reshaped specification, the arguments unchanged. -/
theorem run : θ_run defs (onTc (τ := τ) (main (F := Ideal))) ⟨m, fun _ => 0, ρ⟩ fun r => ∀ c : Dev nD,
      r.2.mem ((c.tc : Thread nD τ).loc main_v0) = shapeCast S8x2048x512 (Gk m c) shapeCasts_S16384x512_S8x2048x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (tail m hfin c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final
end
-- ==== Proof.RefValue.lean ====
import proofs.«146490_j30142080483336_2_alg».proof.Proof.Gen.ReferenceIdeal.Read
import proofs.«146490_j30142080483336_2_alg».proof.Proof.Spec
import proofs.«146490_j30142080483336_2_alg».proof.Proof.Consts
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.Tactic
open Idealize.ShloMosaic.Pipeline (Dat)

/-! The reference, read row by row: its [16384, 512] result before the last reshape is the specification's function of the
    reshaped tokens, the two weight arrays and the bias. For token `R`: the scores are reals, so their maximum `M` is a
    real, the exponentials and their sum are positive reals, each probability is `exp (L k - M) / ∑`, and the weighted
    sum of the values is the softmax-weighted sum taken against `M`, which equals the one taken against `0`. -/
namespace Cert.ReferenceIdeal.RefValue
open Cert.ReferenceIdeal Cert.ReferenceIdeal.Gen Cert.ReferenceIdeal.Read Idealize.ShloMosaic.ValueIdx Cert.Softmax Cert.Consts

variable (x0 : (⟨S8x2048x512, .f32⟩ : BufTy).Contents (Elt Ideal)) (x1 : (⟨S16384x512, .f32⟩ : BufTy).Contents (Elt Ideal)) (x2 : (⟨S16384, .f32⟩ : BufTy).Contents (Elt Ideal)) (x3 : (⟨S16384x512, .f32⟩ : BufTy).Contents (Elt Ideal))
variable (B : Spec.SB.Idx → EReal)

/-- The reshaped tokens. -/
abbrev Xr : Spec.SX.Idx → EReal := val_main_v0 (F := Ideal) x0

theorem hred : S16384x16384.Reduces [1] S16384 := by decide

theorem lift_row (R : Fin 16384) (k : Fin (S16384x16384.size 1)) :
    hred.lift (ix1 R) k = ix2 R (⟨k.val, k.isLt⟩ : Fin 16384) := by
  funext d; apply Fin.ext
  fin_cases d <;> rfl

section
variable (hB : ∀ k : Fin 16384, B (ix2 (0 : Fin 1) k) = x2 (ix1 k))
include hB

/-- The score of token `R` against slot `k`. -/
theorem v4_eq (R k : Fin 16384) :
    val_main_v4 (F := Ideal) x0 x1 x2 (ix2 R k) = Spec.escore (Xr x0) x1 B R k := by
  rw [val_main_v4_apply, val_main_v1_apply, val_main_v3_apply, val_main_v2_apply]
  unfold Spec.escore
  show _ + _ = _ + _
  refine congrArg₂ (· + ·) (Finset.sum_congr rfl fun e _ => ?_) ?_
  · refine congrArg₂ (· * ·) (congrArg _ ?_) (congrArg _ ?_)
    · funext a; apply Fin.ext
      match a with
      | ⟨0, _⟩ => rfl
      | ⟨1, _⟩ => rfl
    · funext a; apply Fin.ext
      match a with
      | ⟨0, _⟩ => rfl
      | ⟨1, _⟩ => rfl
  · rw [hB]
    exact congrArg x2 (funext fun a => Fin.ext (by match a with | ⟨0, _⟩ => rfl))

variable (hfin : Spec.Finite (Xr x0) x1 x3 B)
include hfin

theorem v4_real (R k : Fin 16384) :
    val_main_v4 (F := Ideal) x0 x1 x2 (ix2 R k) = ((Spec.L (Xr x0) x1 B R k.val : ℝ) : EReal) :=
  (v4_eq x0 x1 x2 B hB R k).trans (Spec.escore_eq_L hfin R k.val k.isLt)

/-- The row maximum is a real. -/
theorem v7_real (R : Fin 16384) : ∃ M : ℝ, val_main_v7 (F := Ideal) x0 x1 x2 (ix1 R) = (M : EReal) := by
  have h5 : val_main_v5 (F := Ideal) x0 x1 x2 (ix1 R)
      = (Finset.univ : Finset (Fin 16384)).fold max ⊥ (fun k => ((Spec.L (Xr x0) x1 B R k.val : ℝ) : EReal)) := by
    unfold val_main_v5
    refine (Host.reduce_eq_fold_single FloatOps.maximumf _ _ reducesTo_S16384x16384_S16384_d1 hred h_S_ (ix1 R)).trans ?_
    have hf : (val_main_v4 (F := Ideal) x0 x1 x2 ∘ hred.lift (ix1 R))
        = fun k : Fin 16384 => ((Spec.L (Xr x0) x1 B R k.val : ℝ) : EReal) :=
      funext fun k => (congrArg (val_main_v4 (F := Ideal) x0 x1 x2) (lift_row R k)).trans (v4_real x0 x1 x2 x3 B hB hfin R _)
    have hb : (val_main_cst (F := Ideal)) (Shape.Idx.first h_S_) = (⊥ : EReal) := ofBits_neginf
    rw [hb]
    exact congrArg (fun f => Finset.fold max (⊥ : EReal) f (Finset.univ : Finset (Fin 16384))) hf
  obtain ⟨M, hM⟩ := newmax_real (fun k : Fin 16384 => Spec.L (Xr x0) x1 B R k.val) (⊥ : EReal) (Or.inl rfl)
  refine ⟨M, ?_⟩
  rw [val_main_v7_apply, val_main_v6_apply, val_main_cst_0_apply, h5]
  show max (Ideal.ofBits .f32 0xFF800000#32) _ = _
  rw [ofBits_neginf]
  exact hM

/-- The whole [16384, 512] result. -/
theorem v17_eq : val_main_v17 (F := Ideal) x0 x1 x2 x3 = Spec.G (Xr x0) x1 x3 B := by
  funext j
  obtain ⟨R, cc, rfl⟩ : ∃ (R : Fin 16384) (cc : Fin 512), j = ix2 R cc := ⟨j 0, j 1, eq_ix2 j⟩
  obtain ⟨M, hM⟩ := v7_real x0 x1 x2 x3 B hB hfin R
  have hL := v4_real x0 x1 x2 x3 B hB hfin R
  have hD := (wsum_one_pos (Spec.L (Xr x0) x1 B R) 16384 (by norm_num) M).ne'
  have h11 : ∀ k : Fin 16384, val_main_v11 (F := Ideal) x0 x1 x2 (ix2 R k)
      = ((Real.exp (Spec.L (Xr x0) x1 B R k.val - M) : ℝ) : EReal) := by
    intro k
    rw [val_main_v11_apply, val_main_v10_apply, val_main_v9_apply, val_main_v8_apply]
    have hi : idx_main_v8 (idx_main_v9 (ix2 R k)) = ix1 R :=
      funext fun a => Fin.ext (by match a with | ⟨0, _⟩ => rfl)
    rw [hi, hM, hL k, Ideal.hostUnary_exp_def, Ideal.subf_def, ← EReal.coe_sub, Ideal.exp_coe]
  have h12 : val_main_v12 (F := Ideal) x0 x1 x2 (ix1 R)
      = ((wsum (Spec.L (Xr x0) x1 B R) (fun _ => 1) 16384 M : ℝ) : EReal) := by
    rw [val_main_v12_apply, val_main_cst_1_apply]
    show Ideal.ofBits .f32 0x00000000#32 + _ = _
    rw [ofBits_zero, zero_add]
    have hi : ∀ k : Fin 16384, idx_main_v12 (ix1 R) k = ix2 R k := fun k =>
      funext fun a => Fin.ext (by match a with | ⟨0, _⟩ => rfl | ⟨1, _⟩ => rfl)
    simp only [hi, h11]
    rw [← coe_sum]
    refine congrArg (fun x : ℝ => (x : EReal)) ?_
    unfold wsum
    rw [← Fin.sum_univ_eq_sum_range (fun k => Real.exp (Spec.L (Xr x0) x1 B R k - M) * (fun _ : ℕ => (1 : ℝ)) k) 16384]
    exact Finset.sum_congr rfl fun k _ => (mul_one _).symm
  have h15 : ∀ k : Fin 16384, val_main_v15 (F := Ideal) x0 x1 x2 (ix2 R k)
      = ((Real.exp (Spec.L (Xr x0) x1 B R k.val - M) * (1 / wsum (Spec.L (Xr x0) x1 B R) (fun _ => 1) 16384 M) : ℝ) : EReal) := by
    intro k
    rw [val_main_v15_apply, val_main_v14_apply, val_main_v13_apply]
    have hi : idx_main_v13 (idx_main_v14 (ix2 R k)) = ix1 R :=
      funext fun a => Fin.ext (by match a with | ⟨0, _⟩ => rfl)
    rw [hi, h12, h11 k]
    exact normalised _ _ hD
  have hl : ∀ k : Fin 16384, lidx_main_v16 (ix2 R cc) k = ix2 R k := fun k =>
    funext fun a => Fin.ext (by match a with | ⟨0, _⟩ => rfl | ⟨1, _⟩ => rfl)
  have hr : ∀ k : Fin 16384, ridx_main_v16 (ix2 R cc) k = ix2 k cc := fun k =>
    funext fun a => Fin.ext (by match a with | ⟨0, _⟩ => rfl | ⟨1, _⟩ => rfl)
  have hV : ∀ k : Fin 16384, (x3 (ix2 k cc) : EReal) = ((Spec.wcol x3 cc k.val : ℝ) : EReal) := fun k =>
    Spec.V_eq_wcol hfin cc k.val k.isLt
  have hsum : (∑ k : Fin 16384, (val_main_v15 (F := Ideal) x0 x1 x2) (lidx_main_v16 (ix2 R cc) k) * x3 (ridx_main_v16 (ix2 R cc) k))
      = ((quot (Spec.L (Xr x0) x1 B R) (Spec.wcol x3 cc) 16384 0 : ℝ) : EReal) := by
    rw [quot_shift (Spec.L (Xr x0) x1 B R) (Spec.wcol x3 cc) 16384 (by norm_num) 0 M,
      ← sum_normalised (Spec.L (Xr x0) x1 B R) (Spec.wcol x3 cc) 16384 M,
      ← Fin.sum_univ_eq_sum_range (fun k => Real.exp (Spec.L (Xr x0) x1 B R k - M)
        * (1 / wsum (Spec.L (Xr x0) x1 B R) (fun _ => 1) 16384 M) * Spec.wcol x3 cc k) 16384, coe_sum]
    refine Finset.sum_congr rfl fun k _ => ?_
    rw [hl, hr, h15, hV, ← EReal.coe_mul]
  rw [val_main_v17_apply, val_main_v16_apply, hsum]
  rfl

end

end Cert.ReferenceIdeal.RefValue
end
-- ==== Proof.FiniteArrays.lean ====
import proofs.«146490_j30142080483336_2_alg».proof.Defs
import proofs.«146490_j30142080483336_2_alg».proof.Proof.Gen.Pre_finite_inputs
import proofs.«146490_j30142080483336_2_alg».proof.Proof.Blocks
import proofs.«146490_j30142080483336_2_alg».proof.Proof.Spec
import proofs.«146490_j30142080483336_2_alg».proof.Proof.Consts
import Idealize.ShloMosaic.Lib.ReduceAll

set_option maxRecDepth 16384

noncomputable section

open Idealize.ShloMosaic Idealize.ShloMosaic.TcCoe Idealize.SL.Sem Idealize.ShloMosaic.Tactic
open Idealize.ShloMosaic.Pipeline (Dat)

/-! The precondition read back: every entry of the four argument arrays is a real number, and so is every entry of the
    four arrays the launch finds (the arguments re-laid). -/
namespace Cert.KernelIdeal.FiniteArrays
open Cert.KernelIdeal Cert.KernelIdeal.Gen Idealize.ShloMosaic.ValueIdx Cert.KernelIdeal.Blocks

instance : Subsingleton Cert.Pre_finite_inputs.S_.Idx := ⟨fun a b => funext fun d => d.elim0⟩

/-- An extended real whose absolute value is below plus infinity is a real. -/
theorem real_of_abs_lt (x : EReal)
    (h : Ideal.cmp .olt (max x (-x)) (Ideal.ofBits .f32 0x7F800000#32) = 1#1) : x = ((x.toReal : ℝ) : EReal) := by
  rw [Cert.Consts.ofBits_posinf] at h
  have hlt : max x (-x) < ⊤ := by
    by_contra hn
    simp [Ideal.cmp, hn] at h
  induction x using EReal.rec with
  | bot => simp at hlt
  | top => simp at hlt
  | coe r => simp

/-- The printed predicate being all ones says every entry of every argument is a real. -/
theorem real_of_pre (a0 : FVec Ideal Cert.Pre_finite_inputs.S8x2048x512 .f32) (a1 : FVec Ideal Cert.Pre_finite_inputs.S16384x512 .f32)
    (a2 : FVec Ideal Cert.Pre_finite_inputs.S16384 .f32) (a3 : FVec Ideal Cert.Pre_finite_inputs.S16384x512 .f32)
    (h : Cert.Pre_finite_inputs.fn (F := Ideal) a0 a1 a2 a3 = fun _ => 1#1) :
    (∀ i, a0 i = (((a0 i : EReal).toReal : ℝ) : EReal)) ∧ (∀ i, a1 i = (((a1 i : EReal).toReal : ℝ) : EReal))
      ∧ (∀ i, a2 i = (((a2 i : EReal).toReal : ℝ) : EReal)) ∧ (∀ i, a3 i = (((a3 i : EReal).toReal : ℝ) : EReal)) := by
  have h' := congrFun h ix0
  unfold Cert.Pre_finite_inputs.fn Cert.Pre_finite_inputs.fn_part1 at h'
  dsimp only at h'
  obtain ⟨h123, h4⟩ := IntOp.andi_eq_one.1 h'
  obtain ⟨h12, h3⟩ := IntOp.andi_eq_one.1 h123
  obtain ⟨h1, h2⟩ := IntOp.andi_eq_one.1 h12
  exact ⟨fun i => real_of_abs_lt _ (Host.reduce_andi_all _ _ _ _ _ h1 i), fun i => real_of_abs_lt _ (Host.reduce_andi_all _ _ _ _ _ h2 i),
    fun i => real_of_abs_lt _ (Host.reduce_andi_all _ _ _ _ _ h3 i), fun i => real_of_abs_lt _ (Host.reduce_andi_all _ _ _ _ _ h4 i)⟩

/-- So the four arrays of the launch are finite. -/
theorem finite_of_pre (m : (ℓ : Loc nD τ sig) → Buf (Elt Ideal) ℓ) (hpre : Cert.Pre_KernelIdeal m) (c : Dev nD) :
    Spec.Finite (Xa m c) (Wa m c) (Va m c) (Ba m c) := by
  obtain ⟨r0, r1, r2, r3⟩ := real_of_pre _ _ _ _ (hpre c)
  refine ⟨fun j => ?_, fun j => ?_, fun j => ?_, fun j => ?_⟩
  · rw [Xa_eq]; exact r0 _
  · rw [Wa_eq]; exact r1 _
  · rw [Va_eq]; exact r3 _
  · rw [Ba_eq]; exact r2 _

end Cert.KernelIdeal.FiniteArrays
end
-- ==== Proof.lean ====
import proofs.«146490_j30142080483336_2_alg».proof.Defs
import proofs.«146490_j30142080483336_2_alg».proof.Proof.Gen.Kernel
import proofs.«146490_j30142080483336_2_alg».proof.Proof.Gen.Kernel.Frame
import proofs.«146490_j30142080483336_2_alg».proof.Proof.Gen.KernelIdeal
import proofs.«146490_j30142080483336_2_alg».proof.Proof.Gen.KernelIdeal.Frame
import proofs.«146490_j30142080483336_2_alg».proof.Proof.Gen.ReferenceIdeal
import proofs.«146490_j30142080483336_2_alg».proof.Proof.Gen.ReferenceIdeal.Run
import proofs.«146490_j30142080483336_2_alg».proof.Proof.Gen.ReferenceIdeal.Read
import proofs.«146490_j30142080483336_2_alg».proof.Proof.Gen.Pre_finite_inputs
import proofs.«146490_j30142080483336_2_alg».proof.Proof.Final
import proofs.«146490_j30142080483336_2_alg».proof.Proof.RefValue
import proofs.«146490_j30142080483336_2_alg».proof.Proof.FiniteArrays
import Idealize.ShloMosaic.Lib.ValueLayout
import Idealize.ShloMosaic.Adequacy
import Idealize.ShloMosaic.Init

/-!
A softmax over 16384 memory slots applied to value embeddings, plus the input: `out = softmax(x Wᵀ + b) V + x` over
16384 tokens of width 512.

The kernel never forms the [16384, 16384] matrix of scores. For each block of 2048 tokens it walks the slots in 32 blocks
of 512, carrying per token a running maximum `μ`, the sum `∑ exp (score − μ)` and the sums `∑ exp (score − μ) · V`;
at each block it moves to the new maximum `μ'`, rescales what it holds by `exp (μ − μ')` and adds the block's terms
taken against `μ'`; after the last block it divides. The reference subtracts the row maximum, exponentiates, normalises
and multiplies by `V`.

Over the extended reals, with finite inputs, both are the same function. Shifting the reference point of
`∑ exp (score − μ) · w` from `μ` to `μ'` multiplies it by `exp (μ − μ')` (Proof/Softmax.lean), so the carried sums are
always the closed-form sums over the slots seen so far (Proof/Rows.lean, Proof/Flash.lean: an induction along the grid),
and the final quotient does not depend on the reference point at all; neither does the reference's
(Proof/RefValue.lean). Finiteness of the inputs (Proof/FiniteArrays.lean) makes every score a real number, which is what
lets the exponent laws be used. Proof/Spec.lean states the common function; Proof/Final.lean carries it from the blocks
the kernel writes back to the whole result array and through the reshape that follows the launch.
-/

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The reference's [16384, 512] result on the kernel's arguments is the specification at the arrays the launch finds. -/
theorem ref_eq (m : (ℓ : Loc Cert.KernelIdeal.nD Cert.KernelIdeal.τ Cert.KernelIdeal.sig) → Buf (Elt Ideal) ℓ) (c : Dev Cert.KernelIdeal.nD)
    (hfin : Spec.Finite (Cert.KernelIdeal.Blocks.Xa m c) (Cert.KernelIdeal.Blocks.Wa m c) (Cert.KernelIdeal.Blocks.Va m c) (Cert.KernelIdeal.Blocks.Ba m c)) :
    Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = Cert.KernelIdeal.Final.Gk m c := by
  have hB : ∀ k : Fin 16384, Cert.KernelIdeal.Blocks.Ba m c (ix2 (0 : Fin 1) k) = (m ((c.tc : Thread Cert.KernelIdeal.nD Cert.KernelIdeal.τ).loc Cert.KernelIdeal.main_arg2)) (ix1 k) := fun k => by
    rw [Cert.KernelIdeal.Blocks.Ba_eq]
    exact shapeCast_a_1a_apply _ _ 0 k
  have hfin' : Spec.Finite (Cert.ReferenceIdeal.RefValue.Xr (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (Cert.KernelIdeal.Blocks.Ba m c) := by
    have h := hfin
    rw [Cert.KernelIdeal.Blocks.Xa_eq, Cert.KernelIdeal.Blocks.Wa_eq, Cert.KernelIdeal.Blocks.Va_eq] at h
    exact h
  refine (Cert.ReferenceIdeal.RefValue.v17_eq _ _ _ _ (Cert.KernelIdeal.Blocks.Ba m c) hB hfin').trans ?_
  show _ = Spec.G (Cert.KernelIdeal.Blocks.Xa m c) (Cert.KernelIdeal.Blocks.Wa m c) (Cert.KernelIdeal.Blocks.Va m c) (Cert.KernelIdeal.Blocks.Ba m c)
  rw [Cert.KernelIdeal.Blocks.Xa_eq, Cert.KernelIdeal.Blocks.Wa_eq, Cert.KernelIdeal.Blocks.Va_eq]
  rfl

/-- Both programs end with the specification's function, reshaped to [8, 2048, 512]. -/
theorem algebraic : Cert.algebraic_KernelIdeal_ReferenceIdeal := by
  intro m ρ m' ρ' hpre hagree
  have hfin := fun c => Cert.KernelIdeal.FiniteArrays.finite_of_pre m hpre c
  refine ⟨_, Cert.KernelIdeal.Final.run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2.1, (hagree c).2.2.1, (hagree c).2.2.2]
  unfold Cert.ReferenceIdeal.Read.val_main_v18
  rw [ref_eq m c (hfin c)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
